-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40x128 .f32) (main_arg10 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S40x128 .f32) (main_arg9 : FVec F S40x128 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S40x128 .f32) (main_arg9 : FVec F S40x128 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S128x40 : Shape := ⟨2, ![128, 40]⟩
abbrev S1x128 : Shape := ⟨2, ![1, 128]⟩
abbrev S1x40 : Shape := ⟨2, ![1, 40]⟩
abbrev S800000x128 : Shape := ⟨2, ![800000, 128]⟩
abbrev S10000x128 : Shape := ⟨2, ![10000, 128]⟩
abbrev S10000x1 : Shape := ⟨2, ![10000, 1]⟩
abbrev S100000x40 : Shape := ⟨2, ![100000, 40]⟩
abbrev S10000x40 : Shape := ⟨2, ![10000, 40]⟩
abbrev S10000 : Shape := ⟨1, ![10000]⟩

abbrev nBuf : Space → Nat
  | .hbm => 83
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40x128, .f32⟩
  | .hbm, ⟨10, _⟩ => ⟨S40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S100000, .f32⟩
  | .hbm, ⟨19, _⟩ => ⟨S800000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x40, .f32⟩
  | .hbm, ⟨33, _⟩ => ⟨S128x40, .f32⟩
  | .hbm, ⟨34, _⟩ => ⟨S1x128, .f32⟩
  | .hbm, ⟨35, _⟩ => ⟨S1x128, .f32⟩
  | .hbm, ⟨36, _⟩ => ⟨S1x40, .f32⟩
  | .hbm, ⟨37, _⟩ => ⟨S100000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .bf16⟩
  | .hbm, ⟨47, _⟩ => ⟨S800000x128, .f32⟩
  | .hbm, ⟨48, _⟩ => ⟨S_, .f32⟩
  | .hbm, ⟨49, _⟩ => ⟨S100000x128, .f32⟩
  | .hbm, ⟨50, _⟩ => ⟨S800000x1, .i32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .bf16⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S100000x128, .bf16⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .bf16⟩
  | .hbm, ⟨77, _⟩ => ⟨S800000x128, .f32⟩
  | .hbm, ⟨78, _⟩ => ⟨S_, .f32⟩
  | .hbm, ⟨79, _⟩ => ⟨S100000x128, .f32⟩
  | .hbm, ⟨80, _⟩ => ⟨S800000x1, .i32⟩
  | .hbm, ⟨81, _⟩ => ⟨S100000x128, .f32⟩
  | .hbm, ⟨82, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S10000x128, .bf16⟩
  | .local _ .vmem, ⟨3, _⟩ => ⟨S10000x128, .bf16⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S10000x128, .bf16⟩
  | .local _ .vmem, ⟨14, _⟩ => ⟨S10000x128, .bf16⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S10000x128, .bf16⟩
  | .local _ .vmem, ⟨21, _⟩ => ⟨S10000x128, .bf16⟩
  | .local _ .vmem, ⟨22, _⟩ => ⟨S10000x128, .f32⟩
  | .local _ .vmem, ⟨23, _⟩ => ⟨S10000x128, .f32⟩
  | .local _ .vmem, ⟨24, _⟩ => ⟨S10000x128, .bf16⟩
  | .local _ .vmem, ⟨25, _⟩ => ⟨S10000x128, .bf16⟩
  | .local _ .vmem, ⟨26, _⟩ => ⟨S10000x1, .f32⟩
  | .local _ .vmem, ⟨27, _⟩ => ⟨S10000x1, .f32⟩
  | .local _ .vmem, ⟨28, _⟩ => ⟨S128x40, .f32⟩
  | .local _ .vmem, ⟨29, _⟩ => ⟨S128x40, .f32⟩
  | .local _ .vmem, ⟨30, _⟩ => ⟨S1x40, .f32⟩
  | .local _ .vmem, ⟨31, _⟩ => ⟨S10000x40, .f32⟩
  | .local _ .vmem, ⟨32, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  transposes_S128x128_S128x128_1_0 : S128x128.Transposes [1, 0] S128x128
  transposes_S40x128_S128x40_1_0 : S40x128.Transposes [1, 0] S128x40
  shapeCasts_S128_S1x128 : S128.ShapeCasts S1x128
  shapeCasts_S40_S1x40 : S40.ShapeCasts S1x40
  bitsLt_bf16_f32 : FTy.bits .bf16 < FTy.bits .f32
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .bf16 = 32 ∨ (Rect.block (s := S100000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .bf16 = 32 ∨ (Rect.block (s := S100000x128) S10000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .bf16 = 32 ∨ (Rect.block (s := S100000x128) S10000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .bf16 = 32 ∨ (Rect.block (s := S100000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x40.size a ≤ S100000x40.size a
  hwx2_6 : ∀ i : grid2.Coords, EltTy.bits .f32 = 32 ∨ (Rect.block (s := S100000x40) S10000x40.size (cc2_transform_6 i) (hinb2_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_v33) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S40x128, .f32⟩
  | 9 => ⟨S40x128, .f32⟩
  | 10 => ⟨S40, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S100000x128, .f32⟩
  | 26 => ⟨S800000x1, .i32⟩
  | 27 => ⟨S100000x128, .f32⟩
  | 28 => ⟨S_, .f32⟩
  | 29 => ⟨S800000, .f32⟩
  | 30 => ⟨S_, .f32⟩
  | 31 => ⟨S100000, .f32⟩
  | 32 => ⟨S800000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S128x128, .f32⟩
  | 41 => ⟨S100000x128, .f32⟩
  | 42 => ⟨S128x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S_, .f32⟩
  | 65 => ⟨S800000, .f32⟩
  | 66 => ⟨S_, .f32⟩
  | 67 => ⟨S100000, .f32⟩
  | 68 => ⟨S800000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S128x128, .f32⟩
  | 77 => ⟨S100000x128, .f32⟩
  | 78 => ⟨S128x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S100000x128, .f32⟩
  | 98 => ⟨S800000x1, .i32⟩
  | 99 => ⟨S100000x128, .f32⟩
  | 100 => ⟨S_, .f32⟩
  | 101 => ⟨S800000, .f32⟩
  | 102 => ⟨S_, .f32⟩
  | 103 => ⟨S100000, .f32⟩
  | 104 => ⟨S800000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S128x40, .f32⟩
  | 113 => ⟨S100000x40, .f32⟩
  | 114 => ⟨S128x40, .f32⟩
  | 115 => ⟨S100000x40, .f32⟩
  | 116 => ⟨S100000x40, .f32⟩
  | 117 => ⟨S1x40, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x1, .f32⟩
  | 5 => ⟨S100000x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The idealized kernel's whole run with its RESULT named.

  The program is three pipelined regions among stretches of host operations.  Every weakly fair execution ends, and at
  the end each buffer that outlives the regions holds what the fold of the program's segments over the launch memory
  gives it: a host stretch applies its operations, a region replaces its output array by what its grid points wrote
  back.  Read at the result buffer this names the returned array (the last region's output after all ten points); read
  at the argument buffers it says they are unchanged.
-/
import proofs.«107827_j63359357550605_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault; the
    returned array ends at the last boundary's contents of its buffer and every argument array as launched. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Net

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«107827_j63359357550605_2_alg».proof.Proof.LibDense
import proofs.«107827_j63359357550605_2_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.LibSageMean.lean ====
/-
  One GraphSAGE layer with MEAN aggregation whose mean is taken inside the layer, entry by entry, on the extended reals.

  The layer receives the SUMS s(r, k) of the neighbours' feature rows, the nodes' own rows x(r, k) and, per node, a
  count d(r) that is at least 1.  Its entry (r, n) before the activation is
      ( sum_k (s(r, k) / d(r)) * wl(k, n)  +  sum_k x(r, k) * wr(k, n) )  +  b(n).
  It depends on row r of s and of x, on d(r), on column n of the two weight matrices and on b(n) only, so a program
  that walks over blocks of rows computes the same array as one that treats all rows at once.

  Two spellings are read to this one function.  The host's divides the sums by the count (the count laid out as a
  column and repeated along the features), takes two dot_generals, adds them and then the bias broadcast to a row
  and down the rows.  A kernel body's multiplies its block of sums by a column holding the RECIPROCAL 1 / d(r)
  (repeated along the lanes), takes two matrix products into zero splats (the nodes' own rows arriving in a narrower
  float format, which changes nothing at the ideal values), adds them and then the bias row repeated down the rows.
  The two agree because for d >= 1 the quotient x / d IS the product x * (1 / d) on every extended real x: d is not
  zero, so both are x * d^-1, whatever x and d are otherwise (d may even be +inf).  Nothing needs the inputs to be
  finite.  Everything is generic in the extents.  (The column and row layouts, the plain contraction as a sum, relu and the
  row-wise log-softmax come from the three lemma files imported first: a copy of this file needs copies of those.)
-/
import proofs.«107827_j63359357550605_2_alg».proof.Proof.LibLayers

noncomputable section

open scoped BigOperators

namespace Cert.LibSageMean

open Idealize.ShloMosaic Idealize.ShloMosaic.ValueIdx Cert.LibDense Cert.LibLayers Cert.LibLayout

/-! ## The law: dividing by a count is multiplying by its reciprocal -/

/-- For d >= 1 (so d is not zero) x * (1 / d) = x / d: both are x * d^-1. -/
theorem mul_recip {x d : EReal} (hd : (1 : EReal) ≤ d) : x * Ideal.div 1 d = Ideal.div x d := by
  have h0 : d ≠ 0 := ne_of_gt (lt_of_lt_of_le (by exact_mod_cast (zero_lt_one : (0 : ℝ) < 1)) hd)
  unfold Ideal.div
  rw [if_neg h0, if_neg h0, one_mul]

/-! ## The layer as one function of rows -/

/-- The mean of the neighbours' rows: the sums of row r divided by the count of row r. -/
def mean {A K : Nat} (s : (⟨2, ![A, K]⟩ : Shape).Idx → EReal) (d : (⟨1, ![A]⟩ : Shape).Idx → EReal) :
    (⟨2, ![A, K]⟩ : Shape).Idx → EReal := fun i => Ideal.div (s i) (d (ix1 (i 0 : Fin A)))

/-- Entry (r, n) of the layer before its activation. -/
def pre (A K N : Nat) (s x : (⟨2, ![A, K]⟩ : Shape).Idx → EReal) (d : (⟨1, ![A]⟩ : Shape).Idx → EReal)
    (wl wr : (⟨2, ![K, N]⟩ : Shape).Idx → EReal) (b : (⟨1, ![N]⟩ : Shape).Idx → EReal) : (⟨2, ![A, N]⟩ : Shape).Idx → EReal :=
  fun j => ((∑ k : Fin K, mean s d (ix2 (j 0 : Fin A) k) * wl (ix2 k (j 1 : Fin N)))
    + (∑ k : Fin K, x (ix2 (j 0 : Fin A) k) * wr (ix2 k (j 1 : Fin N)))) + b (ix1 (j 1 : Fin N))

/-- A hidden layer: the maximum with zero. -/
def hidden (A K N : Nat) (s x : (⟨2, ![A, K]⟩ : Shape).Idx → EReal) (d : (⟨1, ![A]⟩ : Shape).Idx → EReal)
    (wl wr : (⟨2, ![K, N]⟩ : Shape).Idx → EReal) (b : (⟨1, ![N]⟩ : Shape).Idx → EReal) : (⟨2, ![A, N]⟩ : Shape).Idx → EReal :=
  relu (pre A K N s x d wl wr b)

/-- The last layer: the log-softmax of every row. -/
def last (A K N : Nat) (s x : (⟨2, ![A, K]⟩ : Shape).Idx → EReal) (d : (⟨1, ![A]⟩ : Shape).Idx → EReal)
    (wl wr : (⟨2, ![K, N]⟩ : Shape).Idx → EReal) (b : (⟨1, ![N]⟩ : Shape).Idx → EReal) : (⟨2, ![A, N]⟩ : Shape).Idx → EReal :=
  logSoftmax (pre A K N s x d wl wr b)

/-! ## The host's spelling -/

/-- The sums divided by the count laid out as a column and repeated along the features. -/
theorem mean_host {A K : Nat} (s : FVec Ideal ⟨2, ![A, K]⟩ .f32) (d : FVec Ideal ⟨1, ![A]⟩ .f32)
    (hd1 : (⟨1, ![A]⟩ : Shape).BroadcastsInDim ⟨2, ![A, 1]⟩ ![0])
    (hd2 : (⟨2, ![A, 1]⟩ : Shape).BroadcastsInDim ⟨2, ![A, K]⟩ ![0, 1]) :
    Host.divf s (broadcastInDim ⟨2, ![A, K]⟩ ![0, 1] hd2 (broadcastInDim ⟨2, ![A, 1]⟩ ![0] hd1 d)) = mean s d := by
  funext i
  obtain ⟨p, k, rfl⟩ : ∃ (p : Fin A) (k : Fin K), i = ix2 p k := ⟨i 0, i 1, eq_ix2 i⟩
  show Ideal.div (s (ix2 p k)) (broadcastInDim ⟨2, ![A, K]⟩ ![0, 1] hd2 (broadcastInDim ⟨2, ![A, 1]⟩ ![0] hd1 d) (ix2 p k)) = _
  rw [col_host hd1 hd2 d p k]
  rfl

/-- Two dot_generals added, then the bias broadcast to one row and down the rows. -/
theorem pre_host {A K N : Nat} (s x : FVec Ideal ⟨2, ![A, K]⟩ .f32) (d : FVec Ideal ⟨1, ![A]⟩ .f32)
    (wl wr : FVec Ideal ⟨2, ![K, N]⟩ .f32) (b : FVec Ideal ⟨1, ![N]⟩ .f32)
    (hd1 : (⟨1, ![A]⟩ : Shape).BroadcastsInDim ⟨2, ![A, 1]⟩ ![0])
    (hd2 : (⟨2, ![A, 1]⟩ : Shape).BroadcastsInDim ⟨2, ![A, K]⟩ ![0, 1])
    (hb1 : (⟨1, ![N]⟩ : Shape).BroadcastsInDim ⟨2, ![1, N]⟩ ![1])
    (hb2 : (⟨2, ![1, N]⟩ : Shape).BroadcastsInDim ⟨2, ![A, N]⟩ ![0, 1]) :
    addf (addf (Host.dotGeneral (DotDims.plain A K N) none
          (Host.divf s (broadcastInDim ⟨2, ![A, K]⟩ ![0, 1] hd2 (broadcastInDim ⟨2, ![A, 1]⟩ ![0] hd1 d))) wl)
        (Host.dotGeneral (DotDims.plain A K N) none x wr))
      (broadcastInDim ⟨2, ![A, N]⟩ ![0, 1] hb2 (broadcastInDim ⟨2, ![1, N]⟩ ![1] hb1 b))
      = pre A K N s x d wl wr b := by
  rw [mean_host s d hd1 hd2]
  funext j
  rw [addf_apply, addf_apply, bias_rows_host b hb1 hb2 j]
  refine congrArg (· + b (ix1 (j 1 : Fin N))) ?_
  refine congrArg₂ (· + ·) ?_ ?_
  · exact (Ideal.dotGeneral_apply (DotDims.plain A K N) none _ (mean s d) wl j).trans (plain_sum A K N (mean s d) wl j)
  · exact (Ideal.dotGeneral_apply (DotDims.plain A K N) none _ x wr j).trans (plain_sum A K N x wr j)

/-- The hidden layer on the host: the same under a maximum with a broadcast zero. -/
theorem hidden_host {A K N : Nat} (s x : FVec Ideal ⟨2, ![A, K]⟩ .f32) (d : FVec Ideal ⟨1, ![A]⟩ .f32)
    (wl wr : FVec Ideal ⟨2, ![K, N]⟩ .f32) (b : FVec Ideal ⟨1, ![N]⟩ .f32)
    (hd1 : (⟨1, ![A]⟩ : Shape).BroadcastsInDim ⟨2, ![A, 1]⟩ ![0])
    (hd2 : (⟨2, ![A, 1]⟩ : Shape).BroadcastsInDim ⟨2, ![A, K]⟩ ![0, 1])
    (hb1 : (⟨1, ![N]⟩ : Shape).BroadcastsInDim ⟨2, ![1, N]⟩ ![1])
    (hb2 : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (addf (Host.dotGeneral (DotDims.plain A K N) none
          (Host.divf s (broadcastInDim ⟨2, ![A, K]⟩ ![0, 1] hd2 (broadcastInDim ⟨2, ![A, 1]⟩ ![0] hd1 d))) wl)
        (Host.dotGeneral (DotDims.plain A K N) none x wr))
      (broadcastInDim ⟨2, ![A, N]⟩ ![0, 1] hb2 (broadcastInDim ⟨2, ![1, N]⟩ ![1] hb1 b)))
      (broadcastInDim ⟨2, ![A, N]⟩ ![] hS (constant (F := Ideal) ⟨0, ![]⟩ .f32 0x00000000#32))
      = hidden A K N s x d wl wr b := by
  rw [pre_host s x d wl wr b hd1 hd2 hb1 hb2]
  exact relu_host _ hS

/-! ## A kernel body's spelling, on a block of rows -/

/-- What a body that loads a block of the sums, of the nodes' own rows (in a narrower format), of the reciprocal
    counts as a column, both weight matrices and the bias row computes before its activation: every loaded block
    passes through an identity cast. -/
def bodyPre {a K N : Nat} (sb : FVec Ideal ⟨2, ![a, K]⟩ .f32) (xb : FVec Ideal ⟨2, ![a, K]⟩ .bf16)
    (cb : FVec Ideal ⟨2, ![a, 1]⟩ .f32) (wl wr : FVec Ideal ⟨2, ![K, N]⟩ .f32) (brow : FVec Ideal ⟨2, ![1, N]⟩ .f32)
    (hlt : FTy.bits .bf16 < FTy.bits .f32)
    (haK : (⟨2, ![a, K]⟩ : Shape).ShapeCasts ⟨2, ![a, K]⟩) (ha1 : (⟨2, ![a, 1]⟩ : Shape).ShapeCasts ⟨2, ![a, 1]⟩)
    (hKN : (⟨2, ![K, N]⟩ : Shape).ShapeCasts ⟨2, ![K, N]⟩) (h1N : (⟨2, ![1, N]⟩ : Shape).ShapeCasts ⟨2, ![1, N]⟩)
    (hbc : (⟨2, ![a, 1]⟩ : Shape).Broadcasts ⟨2, ![a, K]⟩) (hbb : (⟨2, ![1, N]⟩ : Shape).Broadcasts ⟨2, ![a, N]⟩) :
    FVec Ideal ⟨2, ![a, N]⟩ .f32 :=
  addf (addf (matmul (DotDims.plain a K N) none
        (mulf (shapeCast ⟨2, ![a, K]⟩ sb haK) (broadcastTo ⟨2, ![a, K]⟩ (shapeCast ⟨2, ![a, 1]⟩ cb ha1) hbc))
        (shapeCast ⟨2, ![K, N]⟩ wl hKN) (constant ⟨2, ![a, N]⟩ .f32 0x00000000#32))
      (matmul (DotDims.plain a K N) none (extf .f32 (shapeCast ⟨2, ![a, K]⟩ xb haK) hlt)
        (shapeCast ⟨2, ![K, N]⟩ wr hKN) (constant ⟨2, ![a, N]⟩ .f32 0x00000000#32)))
    (broadcastTo ⟨2, ![a, N]⟩ (shapeCast ⟨2, ![1, N]⟩ brow h1N) hbb)

/-- A one-row array repeated down the rows reads, at (p, q), the row's entry of column q. -/
theorem broadcastTo_1n_an_apply {a N : Nat} {α : Type} (v : (⟨2, ![1, N]⟩ : Shape).Idx → α)
    (h : (⟨2, ![1, N]⟩ : Shape).Broadcasts ⟨2, ![a, N]⟩) (p : Fin a) (q : Fin N) :
    broadcastTo ⟨2, ![a, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The body's value at entry (p, q) of the block. -/
theorem bodyPre_apply {a K N : Nat} (sb : FVec Ideal ⟨2, ![a, K]⟩ .f32) (xb : FVec Ideal ⟨2, ![a, K]⟩ .bf16)
    (cb : FVec Ideal ⟨2, ![a, 1]⟩ .f32) (wl wr : FVec Ideal ⟨2, ![K, N]⟩ .f32) (brow : FVec Ideal ⟨2, ![1, N]⟩ .f32)
    (hlt : FTy.bits .bf16 < FTy.bits .f32)
    (haK : (⟨2, ![a, K]⟩ : Shape).ShapeCasts ⟨2, ![a, K]⟩) (ha1 : (⟨2, ![a, 1]⟩ : Shape).ShapeCasts ⟨2, ![a, 1]⟩)
    (hKN : (⟨2, ![K, N]⟩ : Shape).ShapeCasts ⟨2, ![K, N]⟩) (h1N : (⟨2, ![1, N]⟩ : Shape).ShapeCasts ⟨2, ![1, N]⟩)
    (hbc : (⟨2, ![a, 1]⟩ : Shape).Broadcasts ⟨2, ![a, K]⟩) (hbb : (⟨2, ![1, N]⟩ : Shape).Broadcasts ⟨2, ![a, N]⟩)
    (p : Fin a) (q : Fin N) :
    bodyPre sb xb cb wl wr brow hlt haK ha1 hKN h1N hbc hbb (ix2 p q)
      = ((∑ k : Fin K, (sb (ix2 p k) * cb (ix2 p (0 : Fin 1))) * wl (ix2 k q))
        + (∑ k : Fin K, xb (ix2 p k) * wr (ix2 k q))) + brow (ix2 (0 : Fin 1) q) := by
  unfold bodyPre
  rw [shapeCast_self sb haK, shapeCast_self xb haK, shapeCast_self cb ha1, shapeCast_self wl hKN,
    shapeCast_self wr hKN, shapeCast_self brow h1N, addf_apply, addf_apply, broadcastTo_1n_an_apply brow hbb p q]
  refine congrArg (· + brow (ix2 (0 : Fin 1) q)) ?_
  refine congrArg₂ (· + ·) ?_ ?_
  · refine (Ideal.matmul_constant_zero_apply (DotDims.plain a K N) none _ wl (ix2 p q)).trans ?_
    refine (plain_sum a K N (mulf sb (broadcastTo ⟨2, ![a, K]⟩ cb hbc)) wl (ix2 p q)).trans ?_
    refine Finset.sum_congr rfl fun k _ => ?_
    show (mulf sb (broadcastTo ⟨2, ![a, K]⟩ cb hbc)) (ix2 p k) * wl (ix2 k q) = _
    rw [mulf_apply, broadcastTo_a1_ab_apply cb hbc p k]
  · refine (Ideal.matmul_constant_zero_apply (DotDims.plain a K N) none _ wr (ix2 p q)).trans ?_
    exact plain_sum a K N (extf .f32 xb hlt) wr (ix2 p q)

/-- Entry (p, q) of the body's value on a block is entry (r, q) of the layer on the whole arrays, when row p of each
    block is row r of its array, the block's column holds the reciprocal of a count d(r) >= 1, the weights are the
    arrays' and the bias row holds the bias. -/
theorem bodyPre_eq_pre {a A K N : Nat} (sb : FVec Ideal ⟨2, ![a, K]⟩ .f32) (xb : FVec Ideal ⟨2, ![a, K]⟩ .bf16)
    (cb : FVec Ideal ⟨2, ![a, 1]⟩ .f32) (wl wr : FVec Ideal ⟨2, ![K, N]⟩ .f32) (brow : FVec Ideal ⟨2, ![1, N]⟩ .f32)
    (hlt : FTy.bits .bf16 < FTy.bits .f32)
    (haK : (⟨2, ![a, K]⟩ : Shape).ShapeCasts ⟨2, ![a, K]⟩) (ha1 : (⟨2, ![a, 1]⟩ : Shape).ShapeCasts ⟨2, ![a, 1]⟩)
    (hKN : (⟨2, ![K, N]⟩ : Shape).ShapeCasts ⟨2, ![K, N]⟩) (h1N : (⟨2, ![1, N]⟩ : Shape).ShapeCasts ⟨2, ![1, N]⟩)
    (hbc : (⟨2, ![a, 1]⟩ : Shape).Broadcasts ⟨2, ![a, K]⟩) (hbb : (⟨2, ![1, N]⟩ : Shape).Broadcasts ⟨2, ![a, N]⟩)
    (s x : (⟨2, ![A, K]⟩ : Shape).Idx → EReal) (d : (⟨1, ![A]⟩ : Shape).Idx → EReal) (b : (⟨1, ![N]⟩ : Shape).Idx → EReal)
    (p : Fin a) (r : Fin A) (q : Fin N)
    (hs : ∀ k : Fin K, sb (ix2 p k) = s (ix2 r k)) (hx : ∀ k : Fin K, xb (ix2 p k) = x (ix2 r k))
    (hc : cb (ix2 p (0 : Fin 1)) = Ideal.div 1 (d (ix1 r))) (hd : (1 : EReal) ≤ d (ix1 r))
    (hb : brow (ix2 (0 : Fin 1) q) = b (ix1 q)) :
    bodyPre sb xb cb wl wr brow hlt haK ha1 hKN h1N hbc hbb (ix2 p q) = pre A K N s x d wl wr b (ix2 r q) := by
  rw [bodyPre_apply]
  show _ = ((∑ k : Fin K, Ideal.div (s (ix2 r k)) (d (ix1 r)) * wl (ix2 k q)) + (∑ k : Fin K, x (ix2 r k) * wr (ix2 k q))) + b (ix1 q)
  rw [hb, hc]
  refine congrArg (· + b (ix1 q)) (congrArg₂ (· + ·) ?_ ?_)
  · exact Finset.sum_congr rfl fun k _ => by rw [hs k, mul_recip hd]
  · exact Finset.sum_congr rfl fun k _ => by rw [hx k]

end Cert.LibSageMean

end
-- ==== Proof.KRegion0.lean ====
/-
  Region 0 of the idealized kernel: what its output array holds after all ten grid points, as ONE function of the
  arrays the region finds when it is entered.

  The region walks over ten blocks of 10000 node rows.  At a point it loads block t of the neighbour sums, of the
  nodes' own rows and of the column of reciprocal counts, both whole weight matrices and the bias row, and stores
  max(((sums * recip) @ wl + own @ wr) + bias, 0) as block t of its output.  Entry (p, q) of that block depends on row p
  of the loaded blocks only, and row p of block t is row 10000 t + p of the array; the ten blocks tile the 100000
  rows.  So, when the column holds 1 / d(r) for counts d(r) >= 1, the output array is the hidden SAGE layer of the
  entry arrays, in which the sums are DIVIDED by the count.
-/
import proofs.«107827_j63359357550605_2_alg».proof.Proof.Gen.KernelIdeal.Frame
import proofs.«107827_j63359357550605_2_alg».proof.Proof.LibSageMean

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)
open Cert.LibSageMean Cert.LibLayers

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the maximum with zero of the layer's body on the loaded blocks. -/
theorem pay0_apply (x0 : Vec Ideal S10000x128 .f32) (x1 : Vec Ideal S10000x128 .bf16) (x2 : Vec Ideal S10000x1 .f32)
    (x3 x4 : Vec Ideal S128x128 .f32) (x5 : Vec Ideal S1x128 .f32) (y : S10000x128.Idx) :
    k0_pay1 x0 x1 x2 x3 x4 x5 y
      = max (bodyPre (a := 10000) (K := 128) (N := 128) x0 x1 x2 x3 x4 x5 bitsLt_bf16_f32 shapeCasts_S10000x128_S10000x128
          shapeCasts_S10000x1_S10000x1 shapeCasts_S128x128_S128x128 shapeCasts_S1x128_S1x128 broadcasts_S10000x1_S10000x128
          broadcasts_S1x128_S10000x128 y) (Ideal.ofBits .f32 0x00000000#32) := rfl

/-- The printed index maps over the grid: the three row-blocked inputs and the output sit at block row t, the weights
    and the bias at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Blocks
variable (c : Dev nD) (t : Fin cfg0.N)

/-- Row p of block t of the neighbour sums is row 10000 t + p of the array. -/
theorem blk0_0 (p : Fin 10000) (k : Fin 128) (r : Fin 100000) (hr : r.val = t.val * 10000 + p.val) :
    iblk0 V c 0 t (ix2 p k) = V c main_v33 (ix2 r k) := by
  obtain ⟨e0, e1, -⟩ := idx_facts0 t
  show V c main_v33 (((cfg0.win 0).blk t).view.emb (ix2 p k)) = V c main_v33 (ix2 r k)
  refine congrArg (V c main_v33) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The same for the nodes' own rows. -/
theorem blk0_1 (p : Fin 10000) (k : Fin 128) (r : Fin 100000) (hr : r.val = t.val * 10000 + p.val) :
    iblk0 V c 1 t (ix2 p k) = V c main_v22 (ix2 r k) := by
  obtain ⟨-, -, e0, e1, -⟩ := idx_facts0 t
  show V c main_v22 (((cfg0.win 1).blk t).view.emb (ix2 p k)) = V c main_v22 (ix2 r k)
  refine congrArg (V c main_v22) (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega

/-- The same for the column of reciprocal counts. -/
theorem blk0_2 (p : Fin 10000) (r : Fin 100000) (hr : r.val = t.val * 10000 + p.val) :
    iblk0 V c 2 t (ix2 p (0 : Fin 1)) = V c main_v12 (ix2 r (0 : Fin 1)) := by
  obtain ⟨-, -, -, -, e0, e1, -⟩ := idx_facts0 t
  show V c main_v12 (((cfg0.win 2).blk t).view.emb (ix2 p (0 : Fin 1))) = V c main_v12 (ix2 r (0 : Fin 1))
  refine congrArg (V c main_v12) (funext fun a => Fin.ext ?_)
  match a with
  | ⟨0, _⟩ => show win0_2.index t (0 : Fin 2) * 10000 + 1 * p.val = r.val; omega
  | ⟨1, _⟩ => show win0_2.index t (1 : Fin 2) * 1 + 1 * 0 = 0; omega

/-- The weight matrices and the bias row are loaded whole. -/
theorem blk0_3 : iblk0 V c 3 t = V c main_v13 := by
  obtain ⟨-, -, -, -, -, -, e0, e1, -⟩ := idx_facts0 t
  funext y
  show V c main_v13 (((cfg0.win 3).blk t).view.emb y) = V c main_v13 y
  refine congrArg (V c main_v13) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk0_4 : iblk0 V c 4 t = V c main_v14 := by
  obtain ⟨-, -, -, -, -, -, -, -, e0, e1, -⟩ := idx_facts0 t
  funext y
  show V c main_v14 (((cfg0.win 4).blk t).view.emb y) = V c main_v14 y
  refine congrArg (V c main_v14) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk0_5 : iblk0 V c 5 t = V c main_v19 := by
  obtain ⟨-, -, -, -, -, -, -, -, -, -, e0, e1, -⟩ := idx_facts0 t
  funext y
  show V c main_v19 (((cfg0.win 5).blk t).view.emb y) = V c main_v19 y
  refine congrArg (V c main_v19) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

end Blocks

/-- An index of the output array is in point t's block iff each coordinate is in the block's range. -/
theorem mem_blk0 (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v34).slice (win0_6.rect t)).set ↔ _
  rw [View.set_slice_whole, Rect.mem_set_unit]
  exact Iff.rfl

/-- The ten blocks tile the array: row r is in the block of point r / 10000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, -, -, -, -, -, -, -, -, e0, e1⟩ := idx_facts0 t
  have ht : t.val = (i 0).val / 10000 := rfl
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- WHAT POINT t WRITES BACK is block t of the hidden layer of the entry arrays. -/
theorem flushed0_eq (c : Dev nD) (t : Fin cfg0.N) (d : S100000.Idx → EReal) (b : S128.Idx → EReal)
    (hc : ∀ r : Fin 100000, V c main_v12 (ix2 r (0 : Fin 1)) = Ideal.div 1 (d (ix1 r)))
    (hd : ∀ r : Fin 100000, (1 : EReal) ≤ d (ix1 r))
    (hb : ∀ q : Fin 128, V c main_v19 (ix2 (0 : Fin 1) q) = b (ix1 q)) :
    (dat0 V c).flushed 6 t = ((cfg0.win 6).blk t).view.read (Elt Ideal)
      (hidden 100000 128 128 (V c main_v33) (V c main_v22) d (V c main_v13) (V c main_v14) b) := by
  show (cfg0.win 6).cut (grid0.coords t) ((dat0 V c).after 6 t) = _
  rw [after0_6]
  unfold out0_6
  rw [View.canon_unit_zero hz0]
  simp only [View.ld_unit_zero (S := S10000x128) hz0, View.ld_unit_zero (S := S10000x1) hz0,
    View.ld_unit_zero (S := S128x128) hz0, View.ld_unit_zero (S := S1x128) hz0]
  rw [blk0_3 V c t, blk0_4 V c t, blk0_5 V c t]
  obtain ⟨-, -, -, -, -, -, -, -, -, -, -, -, e0, e1⟩ := idx_facts0 t
  have hN : cfg0.N = 10 := N_0
  have htl : t.val < 10 := by have := t.isLt; omega
  funext y
  obtain ⟨p, q, rfl⟩ : ∃ (p : Fin 10000) (q : Fin 128), y = ix2 p q := ⟨y 0, y 1, eq_ix2 y⟩
  obtain ⟨r, hr⟩ : ∃ r : Fin 100000, r.val = t.val * 10000 + p.val :=
    ⟨⟨t.val * 10000 + p.val, by have := p.isLt; omega⟩, rfl⟩
  have hemb : ((cfg0.win 6).blk t).view.emb (ix2 p q) = ix2 r q := by
    funext a; apply Fin.ext
    match a with
    | ⟨0, _⟩ => show win0_6.index t (0 : Fin 2) * 10000 + 1 * p.val = r.val; omega
    | ⟨1, _⟩ => show win0_6.index t (1 : Fin 2) * 128 + 1 * q.val = q.val; omega
  show k0_pay1 (iblk0 V c 0 t) (iblk0 V c 1 t) (iblk0 V c 2 t) (V c main_v13) (V c main_v14) (V c main_v19) (ix2 p q)
    = hidden 100000 128 128 (V c main_v33) (V c main_v22) d (V c main_v13) (V c main_v14) b (((cfg0.win 6).blk t).view.emb (ix2 p q))
  rw [hemb, pay0_apply]
  show max _ _ = max (pre 100000 128 128 (V c main_v33) (V c main_v22) d (V c main_v13) (V c main_v14) b (ix2 r q)) _
  refine congrArg (max · (Ideal.ofBits .f32 0x00000000#32)) ?_
  exact bodyPre_eq_pre _ _ _ _ _ _ _ _ _ _ _ _ _ (V c main_v33) (V c main_v22) d b p r q
    (fun k => blk0_0 V c t p k r hr) (fun k => blk0_1 V c t p k r hr)
    ((blk0_2 V c t p r hr).trans (hc r)) (hd r) (hb q)

/-- THE OUTPUT ARRAY after the region: the hidden layer of the entry arrays. -/
theorem region0_arr (c : Dev nD) (d : S100000.Idx → EReal) (b : S128.Idx → EReal)
    (hc : ∀ r : Fin 100000, V c main_v12 (ix2 r (0 : Fin 1)) = Ideal.div 1 (d (ix1 r)))
    (hd : ∀ r : Fin 100000, (1 : EReal) ≤ d (ix1 r))
    (hb : ∀ q : Fin 128, V c main_v19 (ix2 (0 : Fin 1) q) = b (ix1 q)) :
    (dat0 V c).arrAt 6 cfg0.N
      = hidden 100000 128 128 (V c main_v33) (V c main_v22) d (V c main_v13) (V c main_v14) b :=
  (dat0 V c).arrAt_eq_of_cover 6 _ (fun t _ => flushed0_eq V c t d b hc hd hb) cover0

end Cert.KernelIdeal.Net

end
-- ==== Proof.KRegion1.lean ====
/-
  Region 1 of the idealized kernel: what its output array holds after all ten grid points, as ONE function of the
  arrays the region finds when it is entered.

  The region walks over ten blocks of 10000 node rows.  At a point it loads block t of the neighbour sums, of the
  nodes' own rows and of the column of reciprocal counts, both whole weight matrices and the bias row, and stores
  max(((sums * recip) @ wl + own @ wr) + bias, 0) as block t of its output.  Entry (p, q) of that block depends on row p
  of the loaded blocks only, and row p of block t is row 10000 t + p of the array; the ten blocks tile the 100000
  rows.  So, when the column holds 1 / d(r) for counts d(r) >= 1, the output array is the hidden SAGE layer of the
  entry arrays, in which the sums are DIVIDED by the count.
-/
import proofs.«107827_j63359357550605_2_alg».proof.Proof.Gen.KernelIdeal.Frame
import proofs.«107827_j63359357550605_2_alg».proof.Proof.LibSageMean

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)
open Cert.LibSageMean Cert.LibLayers

variable (V : (c : Dev nD) → (b : Ref sig .tc) → Buf (Elt Ideal) ((c : Thread nD τ).loc b))

theorem hz1 : (![0, 0] : Fin 2 → Nat) = fun _ => 0 := funext fun a => by fin_cases a <;> rfl

/-- The body's stored value is the maximum with zero of the layer's body on the loaded blocks. -/
theorem pay1_apply (x0 : Vec Ideal S10000x128 .f32) (x1 : Vec Ideal S10000x128 .bf16) (x2 : Vec Ideal S10000x1 .f32)
    (x3 x4 : Vec Ideal S128x128 .f32) (x5 : Vec Ideal S1x128 .f32) (y : S10000x128.Idx) :
    k1_pay1 x0 x1 x2 x3 x4 x5 y
      = max (bodyPre (a := 10000) (K := 128) (N := 128) x0 x1 x2 x3 x4 x5 bitsLt_bf16_f32 shapeCasts_S10000x128_S10000x128
          shapeCasts_S10000x1_S10000x1 shapeCasts_S128x128_S128x128 shapeCasts_S1x128_S1x128 broadcasts_S10000x1_S10000x128
          broadcasts_S1x128_S10000x128 y) (Ideal.ofBits .f32 0x00000000#32) := rfl

/-- The printed index maps over the grid: the three row-blocked inputs and the output sit at block row t, the weights
    and the bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Blocks
variable (c : Dev nD) (t : Fin cfg1.N)

/-- Row p of block t of the neighbour sums is row 10000 t + p of the array. -/
theorem blk1_0 (p : Fin 10000) (k : Fin 128) (r : Fin 100000) (hr : r.val = t.val * 10000 + p.val) :
    iblk1 V c 0 t (ix2 p k) = V c main_v45 (ix2 r k) := by
  obtain ⟨e0, e1, -⟩ := idx_facts1 t
  show V c main_v45 (((cfg1.win 0).blk t).view.emb (ix2 p k)) = V c main_v45 (ix2 r k)
  refine congrArg (V c main_v45) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The same for the nodes' own rows. -/
theorem blk1_1 (p : Fin 10000) (k : Fin 128) (r : Fin 100000) (hr : r.val = t.val * 10000 + p.val) :
    iblk1 V c 1 t (ix2 p k) = V c main_v34 (ix2 r k) := by
  obtain ⟨-, -, e0, e1, -⟩ := idx_facts1 t
  show V c main_v34 (((cfg1.win 1).blk t).view.emb (ix2 p k)) = V c main_v34 (ix2 r k)
  refine congrArg (V c main_v34) (funext fun a => Fin.ext ?_)
  match a with
  | ⟨0, _⟩ => show win1_1.index t (0 : Fin 2) * 10000 + 1 * p.val = r.val; omega
  | ⟨1, _⟩ => show win1_1.index t (1 : Fin 2) * 128 + 1 * k.val = k.val; omega

/-- The same for the column of reciprocal counts. -/
theorem blk1_2 (p : Fin 10000) (r : Fin 100000) (hr : r.val = t.val * 10000 + p.val) :
    iblk1 V c 2 t (ix2 p (0 : Fin 1)) = V c main_v12 (ix2 r (0 : Fin 1)) := by
  obtain ⟨-, -, -, -, e0, e1, -⟩ := idx_facts1 t
  show V c main_v12 (((cfg1.win 2).blk t).view.emb (ix2 p (0 : Fin 1))) = V c main_v12 (ix2 r (0 : Fin 1))
  refine congrArg (V c main_v12) (funext fun a => Fin.ext ?_)
  match a with
  | ⟨0, _⟩ => show win1_2.index t (0 : Fin 2) * 10000 + 1 * p.val = r.val; omega
  | ⟨1, _⟩ => show win1_2.index t (1 : Fin 2) * 1 + 1 * 0 = 0; omega

/-- The weight matrices and the bias row are loaded whole. -/
theorem blk1_3 : iblk1 V c 3 t = V c main_v15 := by
  obtain ⟨-, -, -, -, -, -, e0, e1, -⟩ := idx_facts1 t
  funext y
  show V c main_v15 (((cfg1.win 3).blk t).view.emb y) = V c main_v15 y
  refine congrArg (V c main_v15) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk1_4 : iblk1 V c 4 t = V c main_v16 := by
  obtain ⟨-, -, -, -, -, -, -, -, e0, e1, -⟩ := idx_facts1 t
  funext y
  show V c main_v16 (((cfg1.win 4).blk t).view.emb y) = V c main_v16 y
  refine congrArg (V c main_v16) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blk1_5 : iblk1 V c 5 t = V c main_v20 := by
  obtain ⟨-, -, -, -, -, -, -, -, -, -, e0, e1, -⟩ := idx_facts1 t
  funext y
  show V c main_v20 (((cfg1.win 5).blk t).view.emb y) = V c main_v20 y
  refine congrArg (V c main_v20) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

end Blocks

/-- An index of the output array is in point t's block iff each coordinate is in the block's range. -/
theorem mem_blk1 (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v46).slice (win1_6.rect t)).set ↔ _
  rw [View.set_slice_whole, Rect.mem_set_unit]
  exact Iff.rfl

/-- The ten blocks tile the array: row r is in the block of point r / 10000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, -, -, -, -, -, -, -, -, e0, e1⟩ := idx_facts1 t
  have ht : t.val = (i 0).val / 10000 := rfl
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- WHAT POINT t WRITES BACK is block t of the hidden layer of the entry arrays. -/
theorem flushed1_eq (c : Dev nD) (t : Fin cfg1.N) (d : S100000.Idx → EReal) (b : S128.Idx → EReal)
    (hc : ∀ r : Fin 100000, V c main_v12 (ix2 r (0 : Fin 1)) = Ideal.div 1 (d (ix1 r)))
    (hd : ∀ r : Fin 100000, (1 : EReal) ≤ d (ix1 r))
    (hb : ∀ q : Fin 128, V c main_v20 (ix2 (0 : Fin 1) q) = b (ix1 q)) :
    (dat1 V c).flushed 6 t = ((cfg1.win 6).blk t).view.read (Elt Ideal)
      (hidden 100000 128 128 (V c main_v45) (V c main_v34) d (V c main_v15) (V c main_v16) b) := by
  show (cfg1.win 6).cut (grid1.coords t) ((dat1 V c).after 6 t) = _
  rw [after1_6]
  unfold out1_6
  rw [View.canon_unit_zero hz1]
  simp only [View.ld_unit_zero (S := S10000x128) hz1, View.ld_unit_zero (S := S10000x1) hz1,
    View.ld_unit_zero (S := S128x128) hz1, View.ld_unit_zero (S := S1x128) hz1]
  rw [blk1_3 V c t, blk1_4 V c t, blk1_5 V c t]
  obtain ⟨-, -, -, -, -, -, -, -, -, -, -, -, e0, e1⟩ := idx_facts1 t
  have hN : cfg1.N = 10 := N_1
  have htl : t.val < 10 := by have := t.isLt; omega
  funext y
  obtain ⟨p, q, rfl⟩ : ∃ (p : Fin 10000) (q : Fin 128), y = ix2 p q := ⟨y 0, y 1, eq_ix2 y⟩
  obtain ⟨r, hr⟩ : ∃ r : Fin 100000, r.val = t.val * 10000 + p.val :=
    ⟨⟨t.val * 10000 + p.val, by have := p.isLt; omega⟩, rfl⟩
  have hemb : ((cfg1.win 6).blk t).view.emb (ix2 p q) = ix2 r q := by
    funext a; apply Fin.ext
    match a with
    | ⟨0, _⟩ => show win1_6.index t (0 : Fin 2) * 10000 + 1 * p.val = r.val; omega
    | ⟨1, _⟩ => show win1_6.index t (1 : Fin 2) * 128 + 1 * q.val = q.val; omega
  show k1_pay1 (iblk1 V c 0 t) (iblk1 V c 1 t) (iblk1 V c 2 t) (V c main_v15) (V c main_v16) (V c main_v20) (ix2 p q)
    = hidden 100000 128 128 (V c main_v45) (V c main_v34) d (V c main_v15) (V c main_v16) b (((cfg1.win 6).blk t).view.emb (ix2 p q))
  rw [hemb, pay1_apply]
  show max _ _ = max (pre 100000 128 128 (V c main_v45) (V c main_v34) d (V c main_v15) (V c main_v16) b (ix2 r q)) _
  refine congrArg (max · (Ideal.ofBits .f32 0x00000000#32)) ?_
  exact bodyPre_eq_pre _ _ _ _ _ _ _ _ _ _ _ _ _ (V c main_v45) (V c main_v34) d b p r q
    (fun k => blk1_0 V c t p k r hr) (fun k => blk1_1 V c t p k r hr)
    ((blk1_2 V c t p r hr).trans (hc r)) (hd r) (hb q)

/-- THE OUTPUT ARRAY after the region: the hidden layer of the entry arrays. -/
theorem region1_arr (c : Dev nD) (d : S100000.Idx → EReal) (b : S128.Idx → EReal)
    (hc : ∀ r : Fin 100000, V c main_v12 (ix2 r (0 : Fin 1)) = Ideal.div 1 (d (ix1 r)))
    (hd : ∀ r : Fin 100000, (1 : EReal) ≤ d (ix1 r))
    (hb : ∀ q : Fin 128, V c main_v20 (ix2 (0 : Fin 1) q) = b (ix1 q)) :
    (dat1 V c).arrAt 6 cfg1.N
      = hidden 100000 128 128 (V c main_v45) (V c main_v34) d (V c main_v15) (V c main_v16) b :=
  (dat1 V c).arrAt_eq_of_cover 6 _ (fun t _ => flushed1_eq V c t d b hc hd hb) cover1

end Cert.KernelIdeal.Net

end
-- ==== Proof.KRegion2.lean ====
/-
  Region 2 of the idealized kernel: what its output array holds after all ten grid points, as ONE function of the
  arrays the region finds when it is entered.

  The region walks over ten blocks of 10000 node rows.  At a point it loads block t of the neighbour sums, of the
  nodes' own rows and of the column of reciprocal counts, both whole weight matrices and the bias row, forms
  y = ((sums * recip) @ wl + own @ wr) + bias and stores the log-softmax of every row of y as block t of its output.
  Row p of the stored block depends on row p of the loaded blocks only, and row p of block t is row 10000 t + p of the
  array; the ten blocks tile the 100000 rows.  So, when the column holds 1 / d(r) for counts d(r) >= 1, the output
  array is the last SAGE layer of the entry arrays, in which the sums are DIVIDED by the count.
-/
import proofs.«107827_j63359357550605_2_alg».proof.Proof.Gen.KernelIdeal.Frame
import proofs.«107827_j63359357550605_2_alg».proof.Proof.LibSageMean

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)
open Cert.LibSageMean Cert.LibLayers

variable (V : (c : Dev nD) → (b : Ref sig .tc) → Buf (Elt Ideal) ((c : Thread nD τ).loc b))

theorem hz2 : (![0, 0] : Fin 2 → Nat) = fun _ => 0 := funext fun a => by fin_cases a <;> rfl

/-- The layer's body on the loaded blocks, before the log-softmax. -/
abbrev body2 (x0 : Vec Ideal S10000x128 .f32) (x1 : Vec Ideal S10000x128 .bf16) (x2 : Vec Ideal S10000x1 .f32)
    (x3 x4 : Vec Ideal S128x40 .f32) (x5 : Vec Ideal S1x40 .f32) : FVec Ideal S10000x40 .f32 :=
  bodyPre (a := 10000) (K := 128) (N := 40) x0 x1 x2 x3 x4 x5 bitsLt_bf16_f32 shapeCasts_S10000x128_S10000x128
    shapeCasts_S10000x1_S10000x1 shapeCasts_S128x40_S128x40 shapeCasts_S1x40_S1x40 broadcasts_S10000x1_S10000x128
    broadcasts_S1x40_S10000x40

/-- The body's stored value is the row-wise log-softmax of the layer's body on the loaded blocks. -/
theorem pay2_eq (x0 : Vec Ideal S10000x128 .f32) (x1 : Vec Ideal S10000x128 .bf16) (x2 : Vec Ideal S10000x1 .f32)
    (x3 x4 : Vec Ideal S128x40 .f32) (x5 : Vec Ideal S1x40 .f32) :
    k2_pay1 x0 x1 x2 x3 x4 x5 = logSoftmax (A := 10000) (N := 40) (body2 x0 x1 x2 x3 x4 x5) :=
  logSoftmax_kernel (A := 10000) (N := 40) (body2 x0 x1 x2 x3 x4 x5) reduces_S10000x40_S10000 (.inl rfl) rfl rfl
    shapeCasts_S10000_S10000x1 broadcasts_S10000x1_S10000x40

/-- The printed index maps over the grid: the three row-blocked inputs and the output sit at block row t, the weights
    and the bias at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section Blocks
variable (c : Dev nD) (t : Fin cfg2.N)

/-- Row p of block t of the neighbour sums is row 10000 t + p of the array. -/
theorem blk2_0 (p : Fin 10000) (k : Fin 128) (r : Fin 100000) (hr : r.val = t.val * 10000 + p.val) :
    iblk2 V c 0 t (ix2 p k) = V c main_v57 (ix2 r k) := by
  obtain ⟨e0, e1, -⟩ := idx_facts2 t
  show V c main_v57 (((cfg2.win 0).blk t).view.emb (ix2 p k)) = V c main_v57 (ix2 r k)
  refine congrArg (V c main_v57) (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- The same for the nodes' own rows. -/
theorem blk2_1 (p : Fin 10000) (k : Fin 128) (r : Fin 100000) (hr : r.val = t.val * 10000 + p.val) :
    iblk2 V c 1 t (ix2 p k) = V c main_v46 (ix2 r k) := by
  obtain ⟨-, -, e0, e1, -⟩ := idx_facts2 t
  show V c main_v46 (((cfg2.win 1).blk t).view.emb (ix2 p k)) = V c main_v46 (ix2 r k)
  refine congrArg (V c main_v46) (funext fun a => Fin.ext ?_)
  match a with
  | ⟨0, _⟩ => show win2_1.index t (0 : Fin 2) * 10000 + 1 * p.val = r.val; omega
  | ⟨1, _⟩ => show win2_1.index t (1 : Fin 2) * 128 + 1 * k.val = k.val; omega

/-- The same for the column of reciprocal counts. -/
theorem blk2_2 (p : Fin 10000) (r : Fin 100000) (hr : r.val = t.val * 10000 + p.val) :
    iblk2 V c 2 t (ix2 p (0 : Fin 1)) = V c main_v12 (ix2 r (0 : Fin 1)) := by
  obtain ⟨-, -, -, -, e0, e1, -⟩ := idx_facts2 t
  show V c main_v12 (((cfg2.win 2).blk t).view.emb (ix2 p (0 : Fin 1))) = V c main_v12 (ix2 r (0 : Fin 1))
  refine congrArg (V c main_v12) (funext fun a => Fin.ext ?_)
  match a with
  | ⟨0, _⟩ => show win2_2.index t (0 : Fin 2) * 10000 + 1 * p.val = r.val; omega
  | ⟨1, _⟩ => show win2_2.index t (1 : Fin 2) * 1 + 1 * 0 = 0; omega

/-- The weight matrices and the bias row are loaded whole. -/
theorem blk2_3 : iblk2 V c 3 t = V c main_v17 := by
  obtain ⟨-, -, -, -, -, -, e0, e1, -⟩ := idx_facts2 t
  funext y
  show V c main_v17 (((cfg2.win 3).blk t).view.emb y) = V c main_v17 y
  refine congrArg (V c main_v17) (funext fun a => Fin.ext ?_)
  match a with
  | ⟨0, _⟩ => show win2_3.index t (0 : Fin 2) * 128 + 1 * (y 0).val = (y 0).val; omega
  | ⟨1, _⟩ => show win2_3.index t (1 : Fin 2) * 40 + 1 * (y 1).val = (y 1).val; omega

theorem blk2_4 : iblk2 V c 4 t = V c main_v18 := by
  obtain ⟨-, -, -, -, -, -, -, -, e0, e1, -⟩ := idx_facts2 t
  funext y
  show V c main_v18 (((cfg2.win 4).blk t).view.emb y) = V c main_v18 y
  refine congrArg (V c main_v18) (funext fun a => Fin.ext ?_)
  match a with
  | ⟨0, _⟩ => show win2_4.index t (0 : Fin 2) * 128 + 1 * (y 0).val = (y 0).val; omega
  | ⟨1, _⟩ => show win2_4.index t (1 : Fin 2) * 40 + 1 * (y 1).val = (y 1).val; omega

theorem blk2_5 : iblk2 V c 5 t = V c main_v21 := by
  obtain ⟨-, -, -, -, -, -, -, -, -, -, e0, e1, -⟩ := idx_facts2 t
  funext y
  show V c main_v21 (((cfg2.win 5).blk t).view.emb y) = V c main_v21 y
  refine congrArg (V c main_v21) (funext fun a => Fin.ext ?_)
  match a with
  | ⟨0, _⟩ => show win2_5.index t (0 : Fin 2) * 1 + 1 * (y 0).val = (y 0).val; omega
  | ⟨1, _⟩ => show win2_5.index t (1 : Fin 2) * 40 + 1 * (y 1).val = (y 1).val; omega

end Blocks

/-- An index of the output array is in point t's block iff each coordinate is in the block's range. -/
theorem mem_blk2 (t : Fin cfg2.N) (i : S100000x40.Idx) :
    i ∈ ((cfg2.win 6).blk t).view.set ↔ ∀ a : Fin 2, win2_6.index t a * S10000x40.size a ≤ (i a).val
      ∧ (i a).val < win2_6.index t a * S10000x40.size a + S10000x40.size a := by
  show i ∈ ((View.whole main_v58).slice (win2_6.rect t)).set ↔ _
  rw [View.set_slice_whole, Rect.mem_set_unit]
  exact Iff.rfl

/-- The ten blocks tile the array: row r is in the block of point r / 10000. -/
theorem cover2 (i : S100000x40.Idx) :
    ∃ t : Fin cfg2.N, (cfg2.win 6).flush t = true ∧ i ∈ ((cfg2.win 6).blk t).view.set := by
  have hi0 : (i 0).val < 100000 := (i 0).isLt
  have hi1 : (i 1).val < 40 := (i 1).isLt
  have hN : cfg2.N = 10 := N_2
  let t : Fin cfg2.N := ⟨(i 0).val / 10000, by rw [hN]; omega⟩
  obtain ⟨-, -, -, -, -, -, -, -, -, -, -, -, e0, e1⟩ := idx_facts2 t
  have ht : t.val = (i 0).val / 10000 := rfl
  refine ⟨t, flush2_6 t, ?_⟩
  rw [mem_blk2]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 40 ≤ (i 1).val ∧ (i 1).val < win2_6.index t (1 : Fin 2) * 40 + 40; omega

/-- WHAT POINT t WRITES BACK is block t of the last layer of the entry arrays. -/
theorem flushed2_eq (c : Dev nD) (t : Fin cfg2.N) (d : S100000.Idx → EReal) (b : S40.Idx → EReal)
    (hc : ∀ r : Fin 100000, V c main_v12 (ix2 r (0 : Fin 1)) = Ideal.div 1 (d (ix1 r)))
    (hd : ∀ r : Fin 100000, (1 : EReal) ≤ d (ix1 r))
    (hb : ∀ q : Fin 40, V c main_v21 (ix2 (0 : Fin 1) q) = b (ix1 q)) :
    (dat2 V c).flushed 6 t = ((cfg2.win 6).blk t).view.read (Elt Ideal)
      (last 100000 128 40 (V c main_v57) (V c main_v46) d (V c main_v17) (V c main_v18) b) := by
  show (cfg2.win 6).cut (grid2.coords t) ((dat2 V c).after 6 t) = _
  rw [after2_6]
  unfold out2_6
  rw [View.canon_unit_zero hz2]
  simp only [View.ld_unit_zero (S := S10000x128) hz2, View.ld_unit_zero (S := S10000x1) hz2,
    View.ld_unit_zero (S := S128x40) hz2, View.ld_unit_zero (S := S1x40) hz2]
  rw [blk2_3 V c t, blk2_4 V c t, blk2_5 V c t]
  obtain ⟨-, -, -, -, -, -, -, -, -, -, -, -, e0, e1⟩ := idx_facts2 t
  have hN : cfg2.N = 10 := N_2
  have htl : t.val < 10 := by have := t.isLt; omega
  funext y
  obtain ⟨p, q, rfl⟩ : ∃ (p : Fin 10000) (q : Fin 40), y = ix2 p q := ⟨y 0, y 1, eq_ix2 y⟩
  obtain ⟨r, hr⟩ : ∃ r : Fin 100000, r.val = t.val * 10000 + p.val :=
    ⟨⟨t.val * 10000 + p.val, by have := p.isLt; omega⟩, rfl⟩
  have hemb : ((cfg2.win 6).blk t).view.emb (ix2 p q) = ix2 r q := by
    funext a; apply Fin.ext
    match a with
    | ⟨0, _⟩ => show win2_6.index t (0 : Fin 2) * 10000 + 1 * p.val = r.val; omega
    | ⟨1, _⟩ => show win2_6.index t (1 : Fin 2) * 40 + 1 * q.val = q.val; omega
  show k2_pay1 (iblk2 V c 0 t) (iblk2 V c 1 t) (iblk2 V c 2 t) (V c main_v17) (V c main_v18) (V c main_v21) (ix2 p q)
    = last 100000 128 40 (V c main_v57) (V c main_v46) d (V c main_v17) (V c main_v18) b (((cfg2.win 6).blk t).view.emb (ix2 p q))
  rw [hemb, pay2_eq]
  refine logSoftmax_row _ _ p r q fun k => ?_
  exact bodyPre_eq_pre _ _ _ _ _ _ _ _ _ _ _ _ _ (V c main_v57) (V c main_v46) d b p r k
    (fun k' => blk2_0 V c t p k' r hr) (fun k' => blk2_1 V c t p k' r hr)
    ((blk2_2 V c t p r hr).trans (hc r)) (hd r) (hb k)

/-- THE OUTPUT ARRAY after the region: the last layer of the entry arrays. -/
theorem region2_arr (c : Dev nD) (d : S100000.Idx → EReal) (b : S40.Idx → EReal)
    (hc : ∀ r : Fin 100000, V c main_v12 (ix2 r (0 : Fin 1)) = Ideal.div 1 (d (ix1 r)))
    (hd : ∀ r : Fin 100000, (1 : EReal) ≤ d (ix1 r))
    (hb : ∀ q : Fin 40, V c main_v21 (ix2 (0 : Fin 1) q) = b (ix1 q)) :
    (dat2 V c).arrAt 6 cfg2.N
      = last 100000 128 40 (V c main_v57) (V c main_v46) d (V c main_v17) (V c main_v18) b :=
  (dat2 V c).arrAt_eq_of_cover 6 _ (fun t _ => flushed2_eq V c t d b hc hd hb) cover2

end Cert.KernelIdeal.Net

end
-- ==== Proof.SageNet.lean ====
/-
  The three-layer GraphSAGE network as one function of its arrays, on the extended reals.

  Given an aggregation agg (a function from a matrix of node rows to the matrix of the neighbours' row sums), per-node
  counts d, the node features x and three layers' weights and biases, the network is
      h0 = hidden (agg x) x,   h1 = hidden (agg h0) h0,   out = last (agg h1) h1,
  with hidden a mean-aggregation SAGE layer under a maximum with zero and last the same under the row-wise
  log-softmax.  The aggregation is a parameter: both programs compared here aggregate by the SAME gather and
  scatter-add, so it never has to be opened.  Also: the f32 word 1.0 denotes the real 1.
-/
import proofs.«107827_j63359357550605_2_alg».proof.Proof.LibSageMean

noncomputable section

namespace Cert.SageNet

open Idealize.ShloMosaic Idealize.ShloMosaic.ValueIdx Cert.LibSageMean

/-- The word 0x3F800000 is 1.0. -/
theorem ofBits_one : Ideal.ofBits .f32 0x3F800000#32 = 1 := by
  simp [Ideal.ofBits, Ideal.ieee, -EReal.coe_mul]; norm_num

/-- The network: two hidden layers and the last one, each fed the aggregation of the previous layer's rows. -/
def net (A K N : Nat) (agg : ((⟨2, ![A, K]⟩ : Shape).Idx → EReal) → ((⟨2, ![A, K]⟩ : Shape).Idx → EReal))
    (d : (⟨1, ![A]⟩ : Shape).Idx → EReal) (x : (⟨2, ![A, K]⟩ : Shape).Idx → EReal)
    (wl0 wr0 : (⟨2, ![K, K]⟩ : Shape).Idx → EReal) (b0 : (⟨1, ![K]⟩ : Shape).Idx → EReal)
    (wl1 wr1 : (⟨2, ![K, K]⟩ : Shape).Idx → EReal) (b1 : (⟨1, ![K]⟩ : Shape).Idx → EReal)
    (wl2 wr2 : (⟨2, ![K, N]⟩ : Shape).Idx → EReal) (b2 : (⟨1, ![N]⟩ : Shape).Idx → EReal) :
    (⟨2, ![A, N]⟩ : Shape).Idx → EReal :=
  last A K N (agg (hidden A K K (agg (hidden A K K (agg x) x d wl0 wr0 b0)) (hidden A K K (agg x) x d wl0 wr0 b0) d wl1 wr1 b1))
    (hidden A K K (agg (hidden A K K (agg x) x d wl0 wr0 b0)) (hidden A K K (agg x) x d wl0 wr0 b0) d wl1 wr1 b1) d wl2 wr2 b2

end Cert.SageNet

end
-- ==== Proof.KSpec.lean ====
/-
  The pieces of the network that the idealized kernel's host code spells, and what the regions need of them.

  The host cuts the edge list into its source and target rows, counts the edges into each node (ones scatter-added at
  the target ids, then a maximum with one), takes the reciprocal count as a column, and aggregates feature rows: the
  rows at the wrapped source ids (held in a narrower float format, the identity at the ideal values), widened back,
  scatter-added into zero rows at the target ids.  The gather and the scatter-add stay as the program spells them and
  are never opened.  What the regions need: every count is at least one; the column holds 1 / count; a bias laid out
  as a row holds the bias.
-/
import proofs.«107827_j63359357550605_2_alg».proof.Proof.Gen.KernelIdeal
import proofs.«107827_j63359357550605_2_alg».proof.Proof.SageNet

noncomputable section

namespace Cert.KernelIdeal.Net

open Cert.KernelIdeal Cert.KernelIdeal.Gen
open Idealize.ShloMosaic Idealize.ShloMosaic.ValueIdx
open Cert.LibSageMean Cert.LibLayers Cert.SageNet

/-- The source and target rows of the edge list. -/
abbrev srcOf (e : IVec S2x800000 32) : IVec S800000 32 :=
  shapeCast S800000 (extractStridedSlice S1x800000 ![0, 0] e slices_S2x800000_S1x800000_0_0) shapeCasts_S1x800000_S800000
abbrev dstOf (e : IVec S2x800000 32) : IVec S800000 32 :=
  shapeCast S800000 (extractStridedSlice S1x800000 ![1, 0] e slices_S2x800000_S1x800000_1_0) shapeCasts_S1x800000_S800000

/-- The aggregation as the kernel's host spells it: the rows of h (held in a narrower float format) at the wrapped
    source ids, widened, scatter-added into zero rows at the target ids. -/
def aggK (src dst : IVec S800000 32) (h : S100000x128.Idx → EReal) : S100000x128.Idx → EReal :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (extf (F := Ideal) .f32 (Host.gather gather_S100000x128_S800000x1_S800000x128_1_0_n_n_0_1_1128 (h : FVec Ideal S100000x128 .bf16)
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src))) bitsLt_bf16_f32)

/-- The edges into each node: ones scatter-added at the target ids. -/
def degK (dst : IVec S800000 32) : S100000.Idx → EReal :=
  Host.scatterAdd (F := Ideal) scatter_S100000_S800000x1_S800000_n_0_0_1
    (broadcastInDim S100000 ![] bcast_S_S100000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The per-node count: that, and at least one. -/
def cntK (dst : IVec S800000 32) : S100000.Idx → EReal :=
  maximumf (F := Ideal) (degK dst) (broadcastInDim S100000 ![] bcast_S_S100000 (constant (F := Ideal) S_ .f32 0x3F800000#32))

/-- The reciprocal counts as a column. -/
def recipK (dst : IVec S800000 32) : S100000x1.Idx → EReal :=
  broadcastInDim S100000x1 ![0] bcast_S100000_S100000x1_0
    (Host.divf (F := Ideal) (broadcastInDim S100000 ![] bcast_S_S100000 (constant (F := Ideal) S_ .f32 0x3F800000#32)) (cntK dst))

/-- A scalar constant broadcast to any shape reads, everywhere, the value of its word. -/
theorem splat_apply {s : Shape} (h : (⟨0, ![]⟩ : Shape).BroadcastsInDim s (![] : Fin 0 → Fin s.rank)) (bits : BitVec 32) (i : s.Idx) :
    broadcastInDim s ![] h (constant (F := Ideal) ⟨0, ![]⟩ .f32 bits) i = Ideal.ofBits .f32 bits :=
  broadcastInDim_apply _ h (constant (F := Ideal) ⟨0, ![]⟩ .f32 bits) i (fun a => a.elim0) (fun a => a.elim0)

/-- The host's quotient of two arrays reads, at an index, the quotient of the entries. -/
theorem hostDivf_apply {s : Shape} (a b : FVec Ideal s .f32) (i : s.Idx) : Host.divf a b i = Ideal.div (a i) (b i) := rfl

/-- Every count is at least one. -/
theorem one_le_cntK (dst : IVec S800000 32) (r : Fin 100000) : (1 : EReal) ≤ cntK dst (ix1 r) := by
  unfold cntK
  generalize degK dst = g
  rw [maximumf_apply, splat_apply, ofBits_one]
  exact le_max_right _ _

/-- The column holds, at row r, the reciprocal of the count of row r. -/
theorem recipK_apply (dst : IVec S800000 32) (r : Fin 100000) :
    recipK dst (ix2 r (0 : Fin 1)) = Ideal.div 1 (cntK dst (ix1 r)) := by
  unfold recipK
  generalize cntK dst = g
  rw [col1_host (A := 100000) bcast_S100000_S100000x1_0 _ r (0 : Fin 1), hostDivf_apply, splat_apply, ofBits_one]

/-- A bias laid out as one row holds the bias. -/
theorem biasRow_apply {N : Nat} (b : (⟨1, ![N]⟩ : Shape).Idx → EReal) (h : (⟨1, ![N]⟩ : Shape).ShapeCasts ⟨2, ![1, N]⟩) (q : Fin N) :
    shapeCast ⟨2, ![1, N]⟩ b h (ix2 (0 : Fin 1) q) = b (ix1 q) :=
  congrFun (rowVec_shapeCast b h) (ix1 q)

end Cert.KernelIdeal.Net

end
-- ==== Proof.KHost0.lean ====
/-
  The idealized kernel's first host stretch, read at the buffers the three regions and the later stretches use: each
  is the term of the argument arrays that the operations before the first region compose.
-/
import proofs.«107827_j63359357550605_2_alg».proof.Proof.Gen.KernelIdeal.Frame
import proofs.«107827_j63359357550605_2_alg».proof.Proof.KSpec

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open Cert.LibSageMean Cert.LibLayers Cert.SageNet

/-! ## The first stretch -/

section First
variable (m : (ℓ : Loc nD τ sig) → Buf (Elt Ideal) ℓ) (ρ : Dev nD → PrngReg) (c : Dev nD)

theorem W1_v1 : W1 m ρ c (Proc.devRef .tc main_v1) = srcOf (m ((c : Thread nD τ).loc main_arg1)) := by
  show StableHlo.after hostOps0 (W0 m ρ c) (Proc.devRef .tc main_v1) = _
  after_results_simp <;> rfl
theorem W1_v3 : W1 m ρ c (Proc.devRef .tc main_v3) = dstOf (m ((c : Thread nD τ).loc main_arg1)) := by
  show StableHlo.after hostOps0 (W0 m ρ c) (Proc.devRef .tc main_v3) = _
  after_results_simp <;> rfl
theorem W1_v12 : W1 m ρ c (Proc.devRef .tc main_v12) = recipK (dstOf (m ((c : Thread nD τ).loc main_arg1))) := by
  show StableHlo.after hostOps0 (W0 m ρ c) (Proc.devRef .tc main_v12) = _
  after_results_simp <;> rfl
theorem W1_v13 : W1 m ρ c (Proc.devRef .tc main_v13) = transpose S128x128 [1, 0] (m ((c : Thread nD τ).loc main_arg2)) transposes_S128x128_S128x128_1_0 := by
  show StableHlo.after hostOps0 (W0 m ρ c) (Proc.devRef .tc main_v13) = _
  after_results_simp <;> rfl
theorem W1_v14 : W1 m ρ c (Proc.devRef .tc main_v14) = transpose S128x128 [1, 0] (m ((c : Thread nD τ).loc main_arg3)) transposes_S128x128_S128x128_1_0 := by
  show StableHlo.after hostOps0 (W0 m ρ c) (Proc.devRef .tc main_v14) = _
  after_results_simp <;> rfl
theorem W1_v15 : W1 m ρ c (Proc.devRef .tc main_v15) = transpose S128x128 [1, 0] (m ((c : Thread nD τ).loc main_arg5)) transposes_S128x128_S128x128_1_0 := by
  show StableHlo.after hostOps0 (W0 m ρ c) (Proc.devRef .tc main_v15) = _
  after_results_simp <;> rfl
theorem W1_v16 : W1 m ρ c (Proc.devRef .tc main_v16) = transpose S128x128 [1, 0] (m ((c : Thread nD τ).loc main_arg6)) transposes_S128x128_S128x128_1_0 := by
  show StableHlo.after hostOps0 (W0 m ρ c) (Proc.devRef .tc main_v16) = _
  after_results_simp <;> rfl
theorem W1_v17 : W1 m ρ c (Proc.devRef .tc main_v17) = transpose S128x40 [1, 0] (m ((c : Thread nD τ).loc main_arg8)) transposes_S40x128_S128x40_1_0 := by
  show StableHlo.after hostOps0 (W0 m ρ c) (Proc.devRef .tc main_v17) = _
  after_results_simp <;> rfl
theorem W1_v18 : W1 m ρ c (Proc.devRef .tc main_v18) = transpose S128x40 [1, 0] (m ((c : Thread nD τ).loc main_arg9)) transposes_S40x128_S128x40_1_0 := by
  show StableHlo.after hostOps0 (W0 m ρ c) (Proc.devRef .tc main_v18) = _
  after_results_simp <;> rfl
theorem W1_v19 : W1 m ρ c (Proc.devRef .tc main_v19) = shapeCast S1x128 (m ((c : Thread nD τ).loc main_arg4)) shapeCasts_S128_S1x128 := by
  show StableHlo.after hostOps0 (W0 m ρ c) (Proc.devRef .tc main_v19) = _
  after_results_simp <;> rfl
theorem W1_v20 : W1 m ρ c (Proc.devRef .tc main_v20) = shapeCast S1x128 (m ((c : Thread nD τ).loc main_arg7)) shapeCasts_S128_S1x128 := by
  show StableHlo.after hostOps0 (W0 m ρ c) (Proc.devRef .tc main_v20) = _
  after_results_simp <;> rfl
theorem W1_v21 : W1 m ρ c (Proc.devRef .tc main_v21) = shapeCast S1x40 (m ((c : Thread nD τ).loc main_arg10)) shapeCasts_S40_S1x40 := by
  show StableHlo.after hostOps0 (W0 m ρ c) (Proc.devRef .tc main_v21) = _
  after_results_simp <;> rfl
theorem W1_v22 : W1 m ρ c (Proc.devRef .tc main_v22) = (m ((c : Thread nD τ).loc main_arg0)) := by
  show StableHlo.after hostOps0 (W0 m ρ c) (Proc.devRef .tc main_v22) = _
  after_results_simp <;> rfl
theorem W1_v33 : W1 m ρ c (Proc.devRef .tc main_v33) = aggK (srcOf (m ((c : Thread nD τ).loc main_arg1))) (dstOf (m ((c : Thread nD τ).loc main_arg1))) (m ((c : Thread nD τ).loc main_arg0)) := by
  show StableHlo.after hostOps0 (W0 m ρ c) (Proc.devRef .tc main_v33) = _
  after_results_simp <;> rfl

end First

end Cert.KernelIdeal.Net

end
-- ==== Proof.KChain.lean ====
/-
  The idealized kernel's buffers at every boundary between its segments, down to the returned array.

  After the first host stretch come, in turn: region 0 (the first hidden layer), a host stretch that aggregates its
  rows, region 1 (the second hidden layer), a host stretch that aggregates its rows, and region 2 (the last layer).
  A region replaces its output array by the layer of the arrays it found and leaves every other buffer alone; a host
  stretch writes its own results and leaves every other buffer alone.  Walking the boundaries in order, each buffer a
  later segment reads is named as a term of the ARGUMENT arrays; the last one read is the returned array, which is
  the three-layer network of the arguments.  The column every region multiplies by holds the reciprocal of a count
  that is at least one, which is what turns the kernel's product into the network's quotient.
-/
import proofs.«107827_j63359357550605_2_alg».proof.Proof.KRun
import proofs.«107827_j63359357550605_2_alg».proof.Proof.KRegion0
import proofs.«107827_j63359357550605_2_alg».proof.Proof.KRegion1
import proofs.«107827_j63359357550605_2_alg».proof.Proof.KRegion2
import proofs.«107827_j63359357550605_2_alg».proof.Proof.KHost0

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.LibSageMean Cert.LibLayers Cert.SageNet

/-! ## The two later host stretches, from any contents -/

section Stretches

/-- The second stretch aggregates the first hidden layer's rows. -/
theorem stretch1_v45 (U : Valuation τ sig (Elt Ideal)) : StableHlo.after (hostOps1 (F := Ideal)) U (Proc.devRef .tc main_v45)
    = aggK (U (Proc.devRef .tc main_v1)) (U (Proc.devRef .tc main_v3)) (U (Proc.devRef .tc main_v34)) := by
  after_results_simp <;> rfl
theorem keep1_v34 (U : Valuation τ sig (Elt Ideal)) : StableHlo.after (hostOps1 (F := Ideal)) U (Proc.devRef .tc main_v34) = U (Proc.devRef .tc main_v34) := by after_results_simp
theorem keep1_v12 (U : Valuation τ sig (Elt Ideal)) : StableHlo.after (hostOps1 (F := Ideal)) U (Proc.devRef .tc main_v12) = U (Proc.devRef .tc main_v12) := by after_results_simp
theorem keep1_v15 (U : Valuation τ sig (Elt Ideal)) : StableHlo.after (hostOps1 (F := Ideal)) U (Proc.devRef .tc main_v15) = U (Proc.devRef .tc main_v15) := by after_results_simp
theorem keep1_v16 (U : Valuation τ sig (Elt Ideal)) : StableHlo.after (hostOps1 (F := Ideal)) U (Proc.devRef .tc main_v16) = U (Proc.devRef .tc main_v16) := by after_results_simp
theorem keep1_v20 (U : Valuation τ sig (Elt Ideal)) : StableHlo.after (hostOps1 (F := Ideal)) U (Proc.devRef .tc main_v20) = U (Proc.devRef .tc main_v20) := by after_results_simp
theorem keep1_v1 (U : Valuation τ sig (Elt Ideal)) : StableHlo.after (hostOps1 (F := Ideal)) U (Proc.devRef .tc main_v1) = U (Proc.devRef .tc main_v1) := by after_results_simp
theorem keep1_v3 (U : Valuation τ sig (Elt Ideal)) : StableHlo.after (hostOps1 (F := Ideal)) U (Proc.devRef .tc main_v3) = U (Proc.devRef .tc main_v3) := by after_results_simp
theorem keep1_v17 (U : Valuation τ sig (Elt Ideal)) : StableHlo.after (hostOps1 (F := Ideal)) U (Proc.devRef .tc main_v17) = U (Proc.devRef .tc main_v17) := by after_results_simp
theorem keep1_v18 (U : Valuation τ sig (Elt Ideal)) : StableHlo.after (hostOps1 (F := Ideal)) U (Proc.devRef .tc main_v18) = U (Proc.devRef .tc main_v18) := by after_results_simp
theorem keep1_v21 (U : Valuation τ sig (Elt Ideal)) : StableHlo.after (hostOps1 (F := Ideal)) U (Proc.devRef .tc main_v21) = U (Proc.devRef .tc main_v21) := by after_results_simp

/-- The third stretch aggregates the second hidden layer's rows. -/
theorem stretch2_v57 (U : Valuation τ sig (Elt Ideal)) : StableHlo.after (hostOps2 (F := Ideal)) U (Proc.devRef .tc main_v57)
    = aggK (U (Proc.devRef .tc main_v1)) (U (Proc.devRef .tc main_v3)) (U (Proc.devRef .tc main_v46)) := by
  after_results_simp <;> rfl
theorem keep2_v46 (U : Valuation τ sig (Elt Ideal)) : StableHlo.after (hostOps2 (F := Ideal)) U (Proc.devRef .tc main_v46) = U (Proc.devRef .tc main_v46) := by after_results_simp
theorem keep2_v12 (U : Valuation τ sig (Elt Ideal)) : StableHlo.after (hostOps2 (F := Ideal)) U (Proc.devRef .tc main_v12) = U (Proc.devRef .tc main_v12) := by after_results_simp
theorem keep2_v17 (U : Valuation τ sig (Elt Ideal)) : StableHlo.after (hostOps2 (F := Ideal)) U (Proc.devRef .tc main_v17) = U (Proc.devRef .tc main_v17) := by after_results_simp
theorem keep2_v18 (U : Valuation τ sig (Elt Ideal)) : StableHlo.after (hostOps2 (F := Ideal)) U (Proc.devRef .tc main_v18) = U (Proc.devRef .tc main_v18) := by after_results_simp
theorem keep2_v21 (U : Valuation τ sig (Elt Ideal)) : StableHlo.after (hostOps2 (F := Ideal)) U (Proc.devRef .tc main_v21) = U (Proc.devRef .tc main_v21) := by after_results_simp

end Stretches

/-! ## The boundaries, in order -/

section Chain
variable (m : (ℓ : Loc nD τ sig) → Buf (Elt Ideal) ℓ) (ρ : Dev nD → PrngReg) (c : Dev nD)

/-- The first hidden layer of the arguments. -/
def h0K : S100000x128.Idx → EReal :=
  hidden 100000 128 128 (aggK (srcOf (m ((c : Thread nD τ).loc main_arg1))) (dstOf (m ((c : Thread nD τ).loc main_arg1))) (m ((c : Thread nD τ).loc main_arg0))) (m ((c : Thread nD τ).loc main_arg0)) (cntK (dstOf (m ((c : Thread nD τ).loc main_arg1)))) (transpose S128x128 [1, 0] (m ((c : Thread nD τ).loc main_arg2)) transposes_S128x128_S128x128_1_0) (transpose S128x128 [1, 0] (m ((c : Thread nD τ).loc main_arg3)) transposes_S128x128_S128x128_1_0) (m ((c : Thread nD τ).loc main_arg4))
/-- The second. -/
def h1K : S100000x128.Idx → EReal :=
  hidden 100000 128 128 (aggK (srcOf (m ((c : Thread nD τ).loc main_arg1))) (dstOf (m ((c : Thread nD τ).loc main_arg1))) (h0K m c)) (h0K m c) (cntK (dstOf (m ((c : Thread nD τ).loc main_arg1)))) (transpose S128x128 [1, 0] (m ((c : Thread nD τ).loc main_arg5)) transposes_S128x128_S128x128_1_0) (transpose S128x128 [1, 0] (m ((c : Thread nD τ).loc main_arg6)) transposes_S128x128_S128x128_1_0) (m ((c : Thread nD τ).loc main_arg7))
/-- The last layer. -/
def outK : S100000x40.Idx → EReal :=
  last 100000 128 40 (aggK (srcOf (m ((c : Thread nD τ).loc main_arg1))) (dstOf (m ((c : Thread nD τ).loc main_arg1))) (h1K m c)) (h1K m c) (cntK (dstOf (m ((c : Thread nD τ).loc main_arg1)))) (transpose S128x40 [1, 0] (m ((c : Thread nD τ).loc main_arg8)) transposes_S40x128_S128x40_1_0) (transpose S128x40 [1, 0] (m ((c : Thread nD τ).loc main_arg9)) transposes_S40x128_S128x40_1_0) (m ((c : Thread nD τ).loc main_arg10))

/-! ### After region 0 -/

theorem W2_v34 : W2 m ρ c (Proc.devRef .tc main_v34) = h0K m c := by
  refine (W2_arr m ρ c 6).trans ?_
  refine (region0_arr (V1 m ρ) c (cntK (dstOf (m ((c : Thread nD τ).loc main_arg1)))) (m ((c : Thread nD τ).loc main_arg4)) ?_ (one_le_cntK _) ?_).trans ?_
  · intro r
    show W1 m ρ c (Proc.devRef .tc main_v12) (ix2 r (0 : Fin 1)) = _
    rw [W1_v12]
    exact recipK_apply _ r
  · intro q
    show W1 m ρ c (Proc.devRef .tc main_v19) (ix2 (0 : Fin 1) q) = _
    rw [W1_v19]
    exact biasRow_apply (N := 128) _ _ q
  · show hidden 100000 128 128 (W1 m ρ c (Proc.devRef .tc main_v33)) (W1 m ρ c (Proc.devRef .tc main_v22)) (cntK (dstOf (m ((c : Thread nD τ).loc main_arg1)))) (W1 m ρ c (Proc.devRef .tc main_v13)) (W1 m ρ c (Proc.devRef .tc main_v14)) (m ((c : Thread nD τ).loc main_arg4)) = _
    rw [W1_v33, W1_v22, W1_v13, W1_v14]
    rfl
theorem W2_v12 : W2 m ρ c (Proc.devRef .tc main_v12) = (recipK (dstOf (m ((c : Thread nD τ).loc main_arg1)))) :=
  (W2_arr m ρ c 2).trans (((dat0 (V1 m ρ) c).arrAt_in 2 rfl cfg0.N).trans ((A_eq0 (V1 m ρ) c 2).trans (W1_v12 m ρ c)))
theorem W2_v1 : W2 m ρ c (Proc.devRef .tc main_v1) = (srcOf (m ((c : Thread nD τ).loc main_arg1))) :=
  (W2_of_ne m ρ c main_v1 (by decide)).trans (W1_v1 m ρ c)
theorem W2_v3 : W2 m ρ c (Proc.devRef .tc main_v3) = (dstOf (m ((c : Thread nD τ).loc main_arg1))) :=
  (W2_of_ne m ρ c main_v3 (by decide)).trans (W1_v3 m ρ c)
theorem W2_v15 : W2 m ρ c (Proc.devRef .tc main_v15) = (transpose S128x128 [1, 0] (m ((c : Thread nD τ).loc main_arg5)) transposes_S128x128_S128x128_1_0) :=
  (W2_of_ne m ρ c main_v15 (by decide)).trans (W1_v15 m ρ c)
theorem W2_v16 : W2 m ρ c (Proc.devRef .tc main_v16) = (transpose S128x128 [1, 0] (m ((c : Thread nD τ).loc main_arg6)) transposes_S128x128_S128x128_1_0) :=
  (W2_of_ne m ρ c main_v16 (by decide)).trans (W1_v16 m ρ c)
theorem W2_v17 : W2 m ρ c (Proc.devRef .tc main_v17) = (transpose S128x40 [1, 0] (m ((c : Thread nD τ).loc main_arg8)) transposes_S40x128_S128x40_1_0) :=
  (W2_of_ne m ρ c main_v17 (by decide)).trans (W1_v17 m ρ c)
theorem W2_v18 : W2 m ρ c (Proc.devRef .tc main_v18) = (transpose S128x40 [1, 0] (m ((c : Thread nD τ).loc main_arg9)) transposes_S40x128_S128x40_1_0) :=
  (W2_of_ne m ρ c main_v18 (by decide)).trans (W1_v18 m ρ c)
theorem W2_v20 : W2 m ρ c (Proc.devRef .tc main_v20) = (shapeCast S1x128 (m ((c : Thread nD τ).loc main_arg7)) shapeCasts_S128_S1x128) :=
  (W2_of_ne m ρ c main_v20 (by decide)).trans (W1_v20 m ρ c)
theorem W2_v21 : W2 m ρ c (Proc.devRef .tc main_v21) = (shapeCast S1x40 (m ((c : Thread nD τ).loc main_arg10)) shapeCasts_S40_S1x40) :=
  (W2_of_ne m ρ c main_v21 (by decide)).trans (W1_v21 m ρ c)

/-! ### After the second host stretch -/

theorem W3_v45 : W3 m ρ c (Proc.devRef .tc main_v45) = aggK (srcOf (m ((c : Thread nD τ).loc main_arg1))) (dstOf (m ((c : Thread nD τ).loc main_arg1))) (h0K m c) := by
  refine (stretch1_v45 (W2 m ρ c)).trans ?_
  rw [W2_v1, W2_v3, W2_v34]
theorem W3_v34 : W3 m ρ c (Proc.devRef .tc main_v34) = (h0K m c) :=
  (keep1_v34 (W2 m ρ c)).trans (W2_v34 m ρ c)
theorem W3_v12 : W3 m ρ c (Proc.devRef .tc main_v12) = (recipK (dstOf (m ((c : Thread nD τ).loc main_arg1)))) :=
  (keep1_v12 (W2 m ρ c)).trans (W2_v12 m ρ c)
theorem W3_v15 : W3 m ρ c (Proc.devRef .tc main_v15) = (transpose S128x128 [1, 0] (m ((c : Thread nD τ).loc main_arg5)) transposes_S128x128_S128x128_1_0) :=
  (keep1_v15 (W2 m ρ c)).trans (W2_v15 m ρ c)
theorem W3_v16 : W3 m ρ c (Proc.devRef .tc main_v16) = (transpose S128x128 [1, 0] (m ((c : Thread nD τ).loc main_arg6)) transposes_S128x128_S128x128_1_0) :=
  (keep1_v16 (W2 m ρ c)).trans (W2_v16 m ρ c)
theorem W3_v20 : W3 m ρ c (Proc.devRef .tc main_v20) = (shapeCast S1x128 (m ((c : Thread nD τ).loc main_arg7)) shapeCasts_S128_S1x128) :=
  (keep1_v20 (W2 m ρ c)).trans (W2_v20 m ρ c)
theorem W3_v1 : W3 m ρ c (Proc.devRef .tc main_v1) = (srcOf (m ((c : Thread nD τ).loc main_arg1))) :=
  (keep1_v1 (W2 m ρ c)).trans (W2_v1 m ρ c)
theorem W3_v3 : W3 m ρ c (Proc.devRef .tc main_v3) = (dstOf (m ((c : Thread nD τ).loc main_arg1))) :=
  (keep1_v3 (W2 m ρ c)).trans (W2_v3 m ρ c)
theorem W3_v17 : W3 m ρ c (Proc.devRef .tc main_v17) = (transpose S128x40 [1, 0] (m ((c : Thread nD τ).loc main_arg8)) transposes_S40x128_S128x40_1_0) :=
  (keep1_v17 (W2 m ρ c)).trans (W2_v17 m ρ c)
theorem W3_v18 : W3 m ρ c (Proc.devRef .tc main_v18) = (transpose S128x40 [1, 0] (m ((c : Thread nD τ).loc main_arg9)) transposes_S40x128_S128x40_1_0) :=
  (keep1_v18 (W2 m ρ c)).trans (W2_v18 m ρ c)
theorem W3_v21 : W3 m ρ c (Proc.devRef .tc main_v21) = (shapeCast S1x40 (m ((c : Thread nD τ).loc main_arg10)) shapeCasts_S40_S1x40) :=
  (keep1_v21 (W2 m ρ c)).trans (W2_v21 m ρ c)

/-! ### After region 1 -/

theorem W4_v46 : W4 m ρ c (Proc.devRef .tc main_v46) = h1K m c := by
  refine (W4_arr m ρ c 6).trans ?_
  refine (region1_arr (V3 m ρ) c (cntK (dstOf (m ((c : Thread nD τ).loc main_arg1)))) (m ((c : Thread nD τ).loc main_arg7)) ?_ (one_le_cntK _) ?_).trans ?_
  · intro r
    show W3 m ρ c (Proc.devRef .tc main_v12) (ix2 r (0 : Fin 1)) = _
    rw [W3_v12]
    exact recipK_apply _ r
  · intro q
    show W3 m ρ c (Proc.devRef .tc main_v20) (ix2 (0 : Fin 1) q) = _
    rw [W3_v20]
    exact biasRow_apply (N := 128) _ _ q
  · show hidden 100000 128 128 (W3 m ρ c (Proc.devRef .tc main_v45)) (W3 m ρ c (Proc.devRef .tc main_v34)) (cntK (dstOf (m ((c : Thread nD τ).loc main_arg1)))) (W3 m ρ c (Proc.devRef .tc main_v15)) (W3 m ρ c (Proc.devRef .tc main_v16)) (m ((c : Thread nD τ).loc main_arg7)) = _
    rw [W3_v45, W3_v34, W3_v15, W3_v16]
    rfl
theorem W4_v12 : W4 m ρ c (Proc.devRef .tc main_v12) = (recipK (dstOf (m ((c : Thread nD τ).loc main_arg1)))) :=
  (W4_arr m ρ c 2).trans (((dat1 (V3 m ρ) c).arrAt_in 2 rfl cfg1.N).trans ((A_eq1 (V3 m ρ) c 2).trans (W3_v12 m ρ c)))
theorem W4_v1 : W4 m ρ c (Proc.devRef .tc main_v1) = (srcOf (m ((c : Thread nD τ).loc main_arg1))) :=
  (W4_of_ne m ρ c main_v1 (by decide)).trans (W3_v1 m ρ c)
theorem W4_v3 : W4 m ρ c (Proc.devRef .tc main_v3) = (dstOf (m ((c : Thread nD τ).loc main_arg1))) :=
  (W4_of_ne m ρ c main_v3 (by decide)).trans (W3_v3 m ρ c)
theorem W4_v17 : W4 m ρ c (Proc.devRef .tc main_v17) = (transpose S128x40 [1, 0] (m ((c : Thread nD τ).loc main_arg8)) transposes_S40x128_S128x40_1_0) :=
  (W4_of_ne m ρ c main_v17 (by decide)).trans (W3_v17 m ρ c)
theorem W4_v18 : W4 m ρ c (Proc.devRef .tc main_v18) = (transpose S128x40 [1, 0] (m ((c : Thread nD τ).loc main_arg9)) transposes_S40x128_S128x40_1_0) :=
  (W4_of_ne m ρ c main_v18 (by decide)).trans (W3_v18 m ρ c)
theorem W4_v21 : W4 m ρ c (Proc.devRef .tc main_v21) = (shapeCast S1x40 (m ((c : Thread nD τ).loc main_arg10)) shapeCasts_S40_S1x40) :=
  (W4_of_ne m ρ c main_v21 (by decide)).trans (W3_v21 m ρ c)

/-! ### After the third host stretch -/

theorem W5_v57 : W5 m ρ c (Proc.devRef .tc main_v57) = aggK (srcOf (m ((c : Thread nD τ).loc main_arg1))) (dstOf (m ((c : Thread nD τ).loc main_arg1))) (h1K m c) := by
  refine (stretch2_v57 (W4 m ρ c)).trans ?_
  rw [W4_v1, W4_v3, W4_v46]
theorem W5_v46 : W5 m ρ c (Proc.devRef .tc main_v46) = (h1K m c) :=
  (keep2_v46 (W4 m ρ c)).trans (W4_v46 m ρ c)
theorem W5_v12 : W5 m ρ c (Proc.devRef .tc main_v12) = (recipK (dstOf (m ((c : Thread nD τ).loc main_arg1)))) :=
  (keep2_v12 (W4 m ρ c)).trans (W4_v12 m ρ c)
theorem W5_v17 : W5 m ρ c (Proc.devRef .tc main_v17) = (transpose S128x40 [1, 0] (m ((c : Thread nD τ).loc main_arg8)) transposes_S40x128_S128x40_1_0) :=
  (keep2_v17 (W4 m ρ c)).trans (W4_v17 m ρ c)
theorem W5_v18 : W5 m ρ c (Proc.devRef .tc main_v18) = (transpose S128x40 [1, 0] (m ((c : Thread nD τ).loc main_arg9)) transposes_S40x128_S128x40_1_0) :=
  (keep2_v18 (W4 m ρ c)).trans (W4_v18 m ρ c)
theorem W5_v21 : W5 m ρ c (Proc.devRef .tc main_v21) = (shapeCast S1x40 (m ((c : Thread nD τ).loc main_arg10)) shapeCasts_S40_S1x40) :=
  (keep2_v21 (W4 m ρ c)).trans (W4_v21 m ρ c)

/-! ### After region 2: the returned array -/

theorem W6_v58 : W6 m ρ c (Proc.devRef .tc main_v58) = outK m c := by
  refine (W6_arr m ρ c 6).trans ?_
  refine (region2_arr (V5 m ρ) c (cntK (dstOf (m ((c : Thread nD τ).loc main_arg1)))) (m ((c : Thread nD τ).loc main_arg10)) ?_ (one_le_cntK _) ?_).trans ?_
  · intro r
    show W5 m ρ c (Proc.devRef .tc main_v12) (ix2 r (0 : Fin 1)) = _
    rw [W5_v12]
    exact recipK_apply _ r
  · intro q
    show W5 m ρ c (Proc.devRef .tc main_v21) (ix2 (0 : Fin 1) q) = _
    rw [W5_v21]
    exact biasRow_apply (N := 40) _ _ q
  · show last 100000 128 40 (W5 m ρ c (Proc.devRef .tc main_v57)) (W5 m ρ c (Proc.devRef .tc main_v46)) (cntK (dstOf (m ((c : Thread nD τ).loc main_arg1)))) (W5 m ρ c (Proc.devRef .tc main_v17)) (W5 m ρ c (Proc.devRef .tc main_v18)) (m ((c : Thread nD τ).loc main_arg10)) = _
    rw [W5_v57, W5_v46, W5_v17, W5_v18]
    rfl

/-- The returned array is the three-layer network of the argument arrays. -/
theorem outK_eq_net : outK m c = net 100000 128 40 (aggK (srcOf (m ((c : Thread nD τ).loc main_arg1))) (dstOf (m ((c : Thread nD τ).loc main_arg1)))) (cntK (dstOf (m ((c : Thread nD τ).loc main_arg1)))) (m ((c : Thread nD τ).loc main_arg0))
    (transpose S128x128 [1, 0] (m ((c : Thread nD τ).loc main_arg2)) transposes_S128x128_S128x128_1_0) (transpose S128x128 [1, 0] (m ((c : Thread nD τ).loc main_arg3)) transposes_S128x128_S128x128_1_0) (m ((c : Thread nD τ).loc main_arg4)) (transpose S128x128 [1, 0] (m ((c : Thread nD τ).loc main_arg5)) transposes_S128x128_S128x128_1_0) (transpose S128x128 [1, 0] (m ((c : Thread nD τ).loc main_arg6)) transposes_S128x128_S128x128_1_0) (m ((c : Thread nD τ).loc main_arg7)) (transpose S128x40 [1, 0] (m ((c : Thread nD τ).loc main_arg8)) transposes_S40x128_S128x40_1_0) (transpose S128x40 [1, 0] (m ((c : Thread nD τ).loc main_arg9)) transposes_S40x128_S128x40_1_0) (m ((c : Thread nD τ).loc main_arg10)) := rfl

end Chain

end Cert.KernelIdeal.Net

end
-- ==== Proof.RefOps.lean ====
/-
  The idealized reference as a list of host operations, cut into stretches.

  The reference is one straight line of 124 host operations: the two rows of the edge list, then three SAGE layers, each
  a stretch that forms the layer before its activation followed by a short stretch for the activation (a maximum with
  zero on the two hidden layers, the log-softmax of every row on the last).  The fold of the whole line over a memory is
  the fold of each stretch over what the previous one leaves, and a stretch keeps every buffer it does not write.  The
  aggregation and the count are named as the program spells them.
-/
import proofs.«107827_j63359357550605_2_alg».proof.Proof.Gen.ReferenceIdeal
import proofs.«107827_j63359357550605_2_alg».proof.Proof.SageNet
import Idealize.ShloMosaic.Lib.StableHlo.Run

noncomputable section

namespace Cert.ReferenceIdeal.Net

open Cert.ReferenceIdeal Cert.ReferenceIdeal.Gen Idealize.ShloMosaic Idealize.ShloMosaic.TcCoe Idealize.SL.Sem Idealize.ShloMosaic.StableHlo
open Cert.LibSageMean Cert.LibLayers Cert.SageNet

variable {F : FTy → Type} [FloatOps F]

/-! ## The program as a list of operations, in seven stretches -/

/-- The two rows of the edge list as vectors of ids. -/
abbrev opsP : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- Layer 0 before its activation. -/
abbrev ops0a : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v25 ((transpose S128x128 [1, 0] · transposes_S128x128_S128x128_1_0) : (⟨S128x128, .f32⟩ : BufTy).Contents (Elt F) → (⟨S128x128, .f32⟩ : BufTy).Contents (Elt F)),
    binary main_arg0 main_v25 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- Its maximum with zero. -/
abbrev opsR0 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- Layer 1 before its activation. -/
abbrev ops1a : List (HloOp τ sig (Elt F)) :=
  [ nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S100000 ![] bcast_S_S100000 : (⟨S_, .f32⟩ : BufTy).Contents (Elt F) → (⟨S100000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_9 (constant S_ .f32 0x3F800000#32),
    unary main_cst_9 main_v46 (broadcastInDim S100000 ![] bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)),
    unary main_arg5 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v53 ((transpose S128x128 [1, 0] · transposes_S128x128_S128x128_1_0) : (⟨S128x128, .f32⟩ : BufTy).Contents (Elt F) → (⟨S128x128, .f32⟩ : BufTy).Contents (Elt F)),
    binary main_v31 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)),
    unary main_arg7 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)) ]

/-- Its maximum with zero. -/
abbrev opsR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v58) (TRef.of (T := ⟨S100000x128, .f32⟩) main_call1_v0) (TRef.of (T := ⟨S100000x128, .f32⟩) main_v59) maximumf ]

/-- Layer 2 before its activation. -/
abbrev ops2a : List (HloOp τ sig (Elt F)) :=
  [ nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_v1 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 100000#32),
    unary main_c_11 main_v62 (broadcastInDim S800000 ![] bcast_S_S800000 : (⟨S_, .i32⟩ : BufTy).Contents (Elt F) → (⟨S800000, .i32⟩ : BufTy).Contents (Elt F)),
    binary main_v1 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_v1 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v67 (broadcastInDim S100000x128 ![] bcast_S_S100000x128 : (⟨S_, .f32⟩ : BufTy).Contents (Elt F) → (⟨S100000x128, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_13 (constant S_ .f32 0x3F800000#32),
    unary main_cst_13 main_v70 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v71 (broadcastInDim S100000 ![] bcast_S_S100000 : (⟨S_, .f32⟩ : BufTy).Contents (Elt F) → (⟨S100000, .f32⟩ : BufTy).Contents (Elt F)),
    unary main_v3 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_15 (constant S_ .f32 0x3F800000#32),
    unary main_cst_15 main_v74 (broadcastInDim S100000 ![] bcast_S_S100000 : (⟨S_, .f32⟩ : BufTy).Contents (Elt F) → (⟨S100000, .f32⟩ : BufTy).Contents (Elt F)),
    binary main_v73 main_v74 main_v75 (maximumf : (⟨S100000, .f32⟩ : BufTy).Contents (Elt F) → (⟨S100000, .f32⟩ : BufTy).Contents (Elt F) → (⟨S100000, .f32⟩ : BufTy).Contents (Elt F)),
    unary main_v75 main_v76 (broadcastInDim S100000x1 ![0] bcast_S100000_S100000x1_0 : (⟨S100000, .f32⟩ : BufTy).Contents (Elt F) → (⟨S100000x1, .f32⟩ : BufTy).Contents (Elt F)),
    unary main_v76 main_v77 (broadcastInDim S100000x128 ![0, 1] bcast_S100000x1_S100000x128_0_1 : (⟨S100000x1, .f32⟩ : BufTy).Contents (Elt F) → (⟨S100000x128, .f32⟩ : BufTy).Contents (Elt F)),
    binary main_v69 main_v77 main_v78 (Host.divf : (⟨S100000x128, .f32⟩ : BufTy).Contents (Elt F) → (⟨S100000x128, .f32⟩ : BufTy).Contents (Elt F) → (⟨S100000x128, .f32⟩ : BufTy).Contents (Elt F)),
    unary main_arg8 main_v79 ((transpose S128x40 [1, 0] · transposes_S40x128_S128x40_1_0) : (⟨S40x128, .f32⟩ : BufTy).Contents (Elt F) → (⟨S128x40, .f32⟩ : BufTy).Contents (Elt F)),
    binary main_v78 main_v79 main_v80 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg9 main_v81 ((transpose S128x40 [1, 0] · transposes_S40x128_S128x40_1_0) : (⟨S40x128, .f32⟩ : BufTy).Contents (Elt F) → (⟨S128x40, .f32⟩ : BufTy).Contents (Elt F)),
    binary main_v59 main_v81 main_v82 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v80 main_v82 main_v83 (addf : (⟨S100000x40, .f32⟩ : BufTy).Contents (Elt F) → (⟨S100000x40, .f32⟩ : BufTy).Contents (Elt F) → (⟨S100000x40, .f32⟩ : BufTy).Contents (Elt F)),
    unary main_arg10 main_v84 (broadcastInDim S1x40 ![1] bcast_S40_S1x40_1 : (⟨S40, .f32⟩ : BufTy).Contents (Elt F) → (⟨S1x40, .f32⟩ : BufTy).Contents (Elt F)),
    unary main_v84 main_v85 (broadcastInDim S100000x40 ![0, 1] bcast_S1x40_S100000x40_0_1 : (⟨S1x40, .f32⟩ : BufTy).Contents (Elt F) → (⟨S100000x40, .f32⟩ : BufTy).Contents (Elt F)),
    binary main_v83 main_v85 main_v86 (addf : (⟨S100000x40, .f32⟩ : BufTy).Contents (Elt F) → (⟨S100000x40, .f32⟩ : BufTy).Contents (Elt F) → (⟨S100000x40, .f32⟩ : BufTy).Contents (Elt F)) ]

/-- The log-softmax of every row. -/
abbrev ops2b : List (HloOp τ sig (Elt F)) :=
  [ TRef.nullary (TRef.of (T := ⟨S_, .f32⟩) main_call2_cst) (constant S_ .f32 0xFF800000#32),
    TRef.binary (TRef.of (T := ⟨S100000x40, .f32⟩) main_v86) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v86) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v87) subf ]

/-- @main's 124 operations, in order. -/
abbrev ops : List (HloOp τ sig (Elt F)) := opsP ++ (ops0a ++ (opsR0 ++ (ops1a ++ (opsR1 ++ (ops2a ++ ops2b)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} : ∀ {l₁ l₂ : List α}, l₁.Forall p → l₂.Forall p → (l₁ ++ l₂).Forall p
  | [], _, _, h₂ => h₂
  | a :: l, _, h₁, h₂ => by
    rw [List.cons_append, List.forall_cons] at *
    exact ⟨h₁.1, forall_append h₁.2 h₂⟩

set_option maxRecDepth 8192 in
theorem opsP_sub : (opsP : List (HloOp τ sig (Elt F))).Forall fun op => op.bufs ⊆ tcRefs τ sig :=
  ⟨unary_bufs_sub .., reshape_bufs_sub .., unary_bufs_sub .., reshape_bufs_sub ..⟩
set_option maxRecDepth 8192 in
theorem ops0a_sub : (ops0a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩
set_option maxRecDepth 8192 in
theorem opsR0_sub : (opsR0 : List (HloOp τ sig (Elt F))).Forall fun op => op.bufs ⊆ tcRefs τ sig :=
  ⟨nullary_bufs_sub .., unary_bufs_sub .., binary_bufs_sub ..⟩
set_option maxRecDepth 8192 in
theorem ops1a_sub : (ops1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩
set_option maxRecDepth 8192 in
theorem opsR1_sub : (opsR1 : List (HloOp τ sig (Elt F))).Forall fun op => op.bufs ⊆ tcRefs τ sig :=
  ⟨nullary_bufs_sub .., unary_bufs_sub .., binary_bufs_sub ..⟩
set_option maxRecDepth 8192 in
theorem ops2a_sub : (ops2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩
set_option maxRecDepth 8192 in
theorem ops2b_sub : (ops2b : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  forall_append opsP_sub (forall_append ops0a_sub (forall_append opsR0_sub (forall_append ops1a_sub (forall_append opsR1_sub (forall_append ops2a_sub ops2b_sub)))))

/-- The fold over a concatenation is the fold over the second part from the fold over the first. -/
theorem after_append {Val : EltTy → Type} : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

/-! ## The pieces of the network the program spells -/

/-- The aggregation: the rows of h at the wrapped source ids, scatter-added into zero rows at the target ids. -/
def aggR (src dst : IVec S800000 32) (h : S100000x128.Idx → EReal) : S100000x128.Idx → EReal :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The per-node count: ones scatter-added at the target ids, and at least one. -/
def cntR (dst : IVec S800000 32) : S100000.Idx → EReal :=
  maximumf (F := Ideal) (Host.scatterAdd (F := Ideal) scatter_S100000_S800000x1_S800000_n_0_0_1
      (broadcastInDim S100000 ![] bcast_S_S100000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S100000 ![] bcast_S_S100000 (constant (F := Ideal) S_ .f32 0x3F800000#32))

/-- The edge rows of the argument. -/
abbrev srcOf (e : IVec S2x800000 32) : IVec S800000 32 :=
  shapeCast S800000 (extractStridedSlice S1x800000 ![0, 0] e slices_S2x800000_S1x800000_0_0) shapeCasts_S1x800000_S800000
abbrev dstOf (e : IVec S2x800000 32) : IVec S800000 32 :=
  shapeCast S800000 (extractStridedSlice S1x800000 ![1, 0] e slices_S2x800000_S1x800000_1_0) shapeCasts_S1x800000_S800000

/-! ## What a stretch does not write it keeps -/

section Keeps
variable (U : Valuation τ sig (Elt Ideal))

theorem keep_P_arg0 : after (opsP (F := Ideal)) U (Proc.devRef .tc main_arg0) = U (Proc.devRef .tc main_arg0) := by after_results_simp
theorem keep_P_arg2 : after (opsP (F := Ideal)) U (Proc.devRef .tc main_arg2) = U (Proc.devRef .tc main_arg2) := by after_results_simp
theorem keep_P_arg3 : after (opsP (F := Ideal)) U (Proc.devRef .tc main_arg3) = U (Proc.devRef .tc main_arg3) := by after_results_simp
theorem keep_P_arg4 : after (opsP (F := Ideal)) U (Proc.devRef .tc main_arg4) = U (Proc.devRef .tc main_arg4) := by after_results_simp
theorem keep_P_arg5 : after (opsP (F := Ideal)) U (Proc.devRef .tc main_arg5) = U (Proc.devRef .tc main_arg5) := by after_results_simp
theorem keep_P_arg6 : after (opsP (F := Ideal)) U (Proc.devRef .tc main_arg6) = U (Proc.devRef .tc main_arg6) := by after_results_simp
theorem keep_P_arg7 : after (opsP (F := Ideal)) U (Proc.devRef .tc main_arg7) = U (Proc.devRef .tc main_arg7) := by after_results_simp
theorem keep_P_arg8 : after (opsP (F := Ideal)) U (Proc.devRef .tc main_arg8) = U (Proc.devRef .tc main_arg8) := by after_results_simp
theorem keep_P_arg9 : after (opsP (F := Ideal)) U (Proc.devRef .tc main_arg9) = U (Proc.devRef .tc main_arg9) := by after_results_simp
theorem keep_P_arg10 : after (opsP (F := Ideal)) U (Proc.devRef .tc main_arg10) = U (Proc.devRef .tc main_arg10) := by after_results_simp
theorem keep_0a_v1 : after (ops0a (F := Ideal)) U (Proc.devRef .tc main_v1) = U (Proc.devRef .tc main_v1) := by after_results_simp
theorem keep_0a_v3 : after (ops0a (F := Ideal)) U (Proc.devRef .tc main_v3) = U (Proc.devRef .tc main_v3) := by after_results_simp
theorem keep_0a_arg5 : after (ops0a (F := Ideal)) U (Proc.devRef .tc main_arg5) = U (Proc.devRef .tc main_arg5) := by after_results_simp
theorem keep_0a_arg6 : after (ops0a (F := Ideal)) U (Proc.devRef .tc main_arg6) = U (Proc.devRef .tc main_arg6) := by after_results_simp
theorem keep_0a_arg7 : after (ops0a (F := Ideal)) U (Proc.devRef .tc main_arg7) = U (Proc.devRef .tc main_arg7) := by after_results_simp
theorem keep_0a_arg8 : after (ops0a (F := Ideal)) U (Proc.devRef .tc main_arg8) = U (Proc.devRef .tc main_arg8) := by after_results_simp
theorem keep_0a_arg9 : after (ops0a (F := Ideal)) U (Proc.devRef .tc main_arg9) = U (Proc.devRef .tc main_arg9) := by after_results_simp
theorem keep_0a_arg10 : after (ops0a (F := Ideal)) U (Proc.devRef .tc main_arg10) = U (Proc.devRef .tc main_arg10) := by after_results_simp
theorem keep_R0_v1 : after (opsR0 (F := Ideal)) U (Proc.devRef .tc main_v1) = U (Proc.devRef .tc main_v1) := by after_results_simp
theorem keep_R0_v3 : after (opsR0 (F := Ideal)) U (Proc.devRef .tc main_v3) = U (Proc.devRef .tc main_v3) := by after_results_simp
theorem keep_R0_arg5 : after (opsR0 (F := Ideal)) U (Proc.devRef .tc main_arg5) = U (Proc.devRef .tc main_arg5) := by after_results_simp
theorem keep_R0_arg6 : after (opsR0 (F := Ideal)) U (Proc.devRef .tc main_arg6) = U (Proc.devRef .tc main_arg6) := by after_results_simp
theorem keep_R0_arg7 : after (opsR0 (F := Ideal)) U (Proc.devRef .tc main_arg7) = U (Proc.devRef .tc main_arg7) := by after_results_simp
theorem keep_R0_arg8 : after (opsR0 (F := Ideal)) U (Proc.devRef .tc main_arg8) = U (Proc.devRef .tc main_arg8) := by after_results_simp
theorem keep_R0_arg9 : after (opsR0 (F := Ideal)) U (Proc.devRef .tc main_arg9) = U (Proc.devRef .tc main_arg9) := by after_results_simp
theorem keep_R0_arg10 : after (opsR0 (F := Ideal)) U (Proc.devRef .tc main_arg10) = U (Proc.devRef .tc main_arg10) := by after_results_simp
theorem keep_1a_v1 : after (ops1a (F := Ideal)) U (Proc.devRef .tc main_v1) = U (Proc.devRef .tc main_v1) := by after_results_simp
theorem keep_1a_v3 : after (ops1a (F := Ideal)) U (Proc.devRef .tc main_v3) = U (Proc.devRef .tc main_v3) := by after_results_simp
theorem keep_1a_arg8 : after (ops1a (F := Ideal)) U (Proc.devRef .tc main_arg8) = U (Proc.devRef .tc main_arg8) := by after_results_simp
theorem keep_1a_arg9 : after (ops1a (F := Ideal)) U (Proc.devRef .tc main_arg9) = U (Proc.devRef .tc main_arg9) := by after_results_simp
theorem keep_1a_arg10 : after (ops1a (F := Ideal)) U (Proc.devRef .tc main_arg10) = U (Proc.devRef .tc main_arg10) := by after_results_simp
theorem keep_R1_v1 : after (opsR1 (F := Ideal)) U (Proc.devRef .tc main_v1) = U (Proc.devRef .tc main_v1) := by after_results_simp
theorem keep_R1_v3 : after (opsR1 (F := Ideal)) U (Proc.devRef .tc main_v3) = U (Proc.devRef .tc main_v3) := by after_results_simp
theorem keep_R1_arg8 : after (opsR1 (F := Ideal)) U (Proc.devRef .tc main_arg8) = U (Proc.devRef .tc main_arg8) := by after_results_simp
theorem keep_R1_arg9 : after (opsR1 (F := Ideal)) U (Proc.devRef .tc main_arg9) = U (Proc.devRef .tc main_arg9) := by after_results_simp
theorem keep_R1_arg10 : after (opsR1 (F := Ideal)) U (Proc.devRef .tc main_arg10) = U (Proc.devRef .tc main_arg10) := by after_results_simp

end Keeps

end Cert.ReferenceIdeal.Net

end
-- ==== Proof.RefLayers.lean ====
/-
  Each stretch of the idealized reference read ONCE, from whatever the buffers hold when it starts.

  The first stretch leaves the two rows of the edge list.  A layer's stretch leaves the layer before its activation,
  of the rows it finds: the neighbour sums divided by the counts, two products, the bias.  An activation's stretch
  leaves the maximum with zero, or the log-softmax of every row, of what it finds.  Each is first named as the program
  spells it, over arbitrary arrays, and that spelling is shown once to be the specification's function; the stretches
  are then read to the spelled form.
-/
import proofs.«107827_j63359357550605_2_alg».proof.Proof.RefOps

noncomputable section

namespace Cert.ReferenceIdeal.Net

open Cert.ReferenceIdeal Cert.ReferenceIdeal.Gen Idealize.ShloMosaic Idealize.ShloMosaic.TcCoe Idealize.SL.Sem Idealize.ShloMosaic.StableHlo
open Cert.LibSageMean Cert.LibLayers Cert.SageNet

/-! ## The layers as the program spells them, over arbitrary arrays -/

/-- A hidden layer before its activation: the sums divided by the counts (a column repeated along the features), two
    dot_generals, the bias broadcast to a row and down the rows. -/
def preL (s x : FVec Ideal S100000x128 .f32) (d : FVec Ideal S100000 .f32) (wl wr : FVec Ideal S128x128 .f32)
    (b : FVec Ideal S128 .f32) : FVec Ideal S100000x128 .f32 :=
  addf (addf (Host.dotGeneral dot_S100000x128_S128x128_S100000x128_1_0_0_1_n_n none
        (Host.divf s (broadcastInDim S100000x128 ![0, 1] bcast_S100000x1_S100000x128_0_1 (broadcastInDim S100000x1 ![0] bcast_S100000_S100000x1_0 d))) wl)
      (Host.dotGeneral dot_S100000x128_S128x128_S100000x128_1_0_0_1_n_n none x wr))
    (broadcastInDim S100000x128 ![0, 1] bcast_S1x128_S100000x128_0_1 (broadcastInDim S1x128 ![1] bcast_S128_S1x128_1 b))

theorem preL_eq (s x : FVec Ideal S100000x128 .f32) (d : FVec Ideal S100000 .f32) (wl wr : FVec Ideal S128x128 .f32)
    (b : FVec Ideal S128 .f32) : preL s x d wl wr b = pre 100000 128 128 s x d wl wr b :=
  pre_host (A := 100000) (K := 128) (N := 128) s x d wl wr b bcast_S100000_S100000x1_0 bcast_S100000x1_S100000x128_0_1
    bcast_S128_S1x128_1 bcast_S1x128_S100000x128_0_1

/-- The maximum with a broadcast zero. -/
def reluR (y : FVec Ideal S100000x128 .f32) : FVec Ideal S100000x128 .f32 :=
  maximumf y (broadcastInDim S100000x128 ![] bcast_S_S100000x128 (constant S_ .f32 0x00000000#32))

theorem reluR_eq (y : FVec Ideal S100000x128 .f32) : reluR y = relu y := relu_host y bcast_S_S100000x128

/-- The last layer before its activation. -/
def preR (s x : FVec Ideal S100000x128 .f32) (d : FVec Ideal S100000 .f32) (wl wr : FVec Ideal S128x40 .f32)
    (b : FVec Ideal S40 .f32) : FVec Ideal S100000x40 .f32 :=
  addf (addf (Host.dotGeneral dot_S100000x128_S128x40_S100000x40_1_0_0_1_n_n none
        (Host.divf s (broadcastInDim S100000x128 ![0, 1] bcast_S100000x1_S100000x128_0_1 (broadcastInDim S100000x1 ![0] bcast_S100000_S100000x1_0 d))) wl)
      (Host.dotGeneral dot_S100000x128_S128x40_S100000x40_1_0_0_1_n_n none x wr))
    (broadcastInDim S100000x40 ![0, 1] bcast_S1x40_S100000x40_0_1 (broadcastInDim S1x40 ![1] bcast_S40_S1x40_1 b))

theorem preR_eq (s x : FVec Ideal S100000x128 .f32) (d : FVec Ideal S100000 .f32) (wl wr : FVec Ideal S128x40 .f32)
    (b : FVec Ideal S40 .f32) : preR s x d wl wr b = pre 100000 128 40 s x d wl wr b :=
  pre_host (A := 100000) (K := 128) (N := 40) s x d wl wr b bcast_S100000_S100000x1_0 bcast_S100000x1_S100000x128_0_1
    bcast_S40_S1x40_1 bcast_S1x40_S100000x40_0_1

/-- The log-softmax of every row. -/
def lsmR (y : FVec Ideal S100000x40 .f32) : FVec Ideal S100000x40 .f32 :=
  subf (subf y (broadcastInDim S100000x40 ![0, 1] bcast_S100000x1_S100000x40_0_1 (broadcastInDim S100000x1 ![0] bcast_S100000_S100000x1_0
      (maximumf (broadcastInDim S100000 ![] bcast_S_S100000 (constant S_ .f32 0xFF800000#32))
        (Host.reduce FloatOps.maximumf y (constant S_ .f32 0xFF800000#32) reducesTo_S100000x40_S100000_d1 h_S_)))))
    (broadcastInDim S100000x40 ![0, 1] bcast_S100000x1_S100000x40_0_1 (Host.log (broadcastInDim S100000x1 ![0] bcast_S100000_S100000x1_0
      (Host.reduceAdd (Host.exp (subf y (broadcastInDim S100000x40 ![0, 1] bcast_S100000x1_S100000x40_0_1 (broadcastInDim S100000x1 ![0] bcast_S100000_S100000x1_0
          (maximumf (broadcastInDim S100000 ![] bcast_S_S100000 (constant S_ .f32 0xFF800000#32))
            (Host.reduce FloatOps.maximumf y (constant S_ .f32 0xFF800000#32) reducesTo_S100000x40_S100000_d1 h_S_))))))
        (constant S_ .f32 0x00000000#32) reducesTo_S100000x40_S100000_d1 h_S_))))

theorem lsmR_eq (y : FVec Ideal S100000x40 .f32) : lsmR y = logSoftmax (A := 100000) (N := 40) y :=
  logSoftmax_host (A := 100000) (N := 40) y reducesTo_S100000x40_S100000_d1 (by decide) h_S_ bcast_S_S100000
    bcast_S100000_S100000x1_0 bcast_S100000x1_S100000x40_0_1

/-! ## Each stretch read once -/

/-- A value carried to a buffer's own type and back is that value. -/
theorem ofBuf_toBuf {sg : RefSig} {T : BufTy} {Val : EltTy → Type} (x : TRef sg T) (v : T.Contents Val) :
    x.ofBuf (x.toBuf v) = v := by
  obtain ⟨r, h, h2, h3⟩ := x
  subst h
  rfl

section Stretches
variable (U : Valuation τ sig (Elt Ideal))

theorem afterP_v1 : after (opsP (F := Ideal)) U (Proc.devRef .tc main_v1) = srcOf (U (Proc.devRef .tc main_arg1)) := by
  after_results_simp <;> rfl
theorem afterP_v3 : after (opsP (F := Ideal)) U (Proc.devRef .tc main_v3) = dstOf (U (Proc.devRef .tc main_arg1)) := by
  after_results_simp <;> rfl

theorem spelled0a_v30 : after (ops0a (F := Ideal)) U (Proc.devRef .tc main_v30)
    = preL (aggR (U (Proc.devRef .tc main_v1)) (U (Proc.devRef .tc main_v3)) (U (Proc.devRef .tc main_arg0))) (U (Proc.devRef .tc main_arg0)) (cntR (U (Proc.devRef .tc main_v3))) (transpose S128x128 [1, 0] (U (Proc.devRef .tc main_arg2)) transposes_S128x128_S128x128_1_0) (transpose S128x128 [1, 0] (U (Proc.devRef .tc main_arg3)) transposes_S128x128_S128x128_1_0) (U (Proc.devRef .tc main_arg4)) := by
  after_results_simp <;> rfl
theorem spelledR0_v31 : after (opsR0 (F := Ideal)) U (Proc.devRef .tc main_v31) = reluR (U (Proc.devRef .tc main_v30)) := by
  after_results_simp <;> rfl
theorem spelled1a_v58 : after (ops1a (F := Ideal)) U (Proc.devRef .tc main_v58)
    = preL (aggR (U (Proc.devRef .tc main_v1)) (U (Proc.devRef .tc main_v3)) (U (Proc.devRef .tc main_v31))) (U (Proc.devRef .tc main_v31)) (cntR (U (Proc.devRef .tc main_v3))) (transpose S128x128 [1, 0] (U (Proc.devRef .tc main_arg5)) transposes_S128x128_S128x128_1_0) (transpose S128x128 [1, 0] (U (Proc.devRef .tc main_arg6)) transposes_S128x128_S128x128_1_0) (U (Proc.devRef .tc main_arg7)) := by
  after_results_simp <;> rfl
theorem spelledR1_v59 : after (opsR1 (F := Ideal)) U (Proc.devRef .tc main_v59) = reluR (U (Proc.devRef .tc main_v58)) := by
  after_results_simp <;> rfl
theorem spelled2a_v86 : after (ops2a (F := Ideal)) U (Proc.devRef .tc main_v86)
    = preR (aggR (U (Proc.devRef .tc main_v1)) (U (Proc.devRef .tc main_v3)) (U (Proc.devRef .tc main_v59))) (U (Proc.devRef .tc main_v59)) (cntR (U (Proc.devRef .tc main_v3))) (transpose S128x40 [1, 0] (U (Proc.devRef .tc main_arg8)) transposes_S40x128_S128x40_1_0) (transpose S128x40 [1, 0] (U (Proc.devRef .tc main_arg9)) transposes_S40x128_S128x40_1_0) (U (Proc.devRef .tc main_arg10)) := by
  after_results_simp <;> rfl
theorem spelled2b_v87 : after (ops2b (F := Ideal)) U (Proc.devRef .tc main_v87) = lsmR (U (Proc.devRef .tc main_v86)) := by
  after_results_simp
  simp only [ofBuf_toBuf]
  rfl

/-- Layer 0's stretch leaves the layer of the features, before its activation. -/
theorem after0a_v30 : after (ops0a (F := Ideal)) U (Proc.devRef .tc main_v30)
    = pre 100000 128 128 (aggR (U (Proc.devRef .tc main_v1)) (U (Proc.devRef .tc main_v3)) (U (Proc.devRef .tc main_arg0))) (U (Proc.devRef .tc main_arg0)) (cntR (U (Proc.devRef .tc main_v3))) (transpose S128x128 [1, 0] (U (Proc.devRef .tc main_arg2)) transposes_S128x128_S128x128_1_0) (transpose S128x128 [1, 0] (U (Proc.devRef .tc main_arg3)) transposes_S128x128_S128x128_1_0) (U (Proc.devRef .tc main_arg4)) :=
  (spelled0a_v30 U).trans (preL_eq _ _ _ _ _ _)
theorem afterR0_v31 : after (opsR0 (F := Ideal)) U (Proc.devRef .tc main_v31) = relu (U (Proc.devRef .tc main_v30)) :=
  (spelledR0_v31 U).trans (reluR_eq _)
/-- Layer 1's stretch leaves the layer of layer 0's rows, before its activation. -/
theorem after1a_v58 : after (ops1a (F := Ideal)) U (Proc.devRef .tc main_v58)
    = pre 100000 128 128 (aggR (U (Proc.devRef .tc main_v1)) (U (Proc.devRef .tc main_v3)) (U (Proc.devRef .tc main_v31))) (U (Proc.devRef .tc main_v31)) (cntR (U (Proc.devRef .tc main_v3))) (transpose S128x128 [1, 0] (U (Proc.devRef .tc main_arg5)) transposes_S128x128_S128x128_1_0) (transpose S128x128 [1, 0] (U (Proc.devRef .tc main_arg6)) transposes_S128x128_S128x128_1_0) (U (Proc.devRef .tc main_arg7)) :=
  (spelled1a_v58 U).trans (preL_eq _ _ _ _ _ _)
theorem afterR1_v59 : after (opsR1 (F := Ideal)) U (Proc.devRef .tc main_v59) = relu (U (Proc.devRef .tc main_v58)) :=
  (spelledR1_v59 U).trans (reluR_eq _)
/-- Layer 2's stretch leaves the layer of layer 1's rows, before its activation. -/
theorem after2a_v86 : after (ops2a (F := Ideal)) U (Proc.devRef .tc main_v86)
    = pre 100000 128 40 (aggR (U (Proc.devRef .tc main_v1)) (U (Proc.devRef .tc main_v3)) (U (Proc.devRef .tc main_v59))) (U (Proc.devRef .tc main_v59)) (cntR (U (Proc.devRef .tc main_v3))) (transpose S128x40 [1, 0] (U (Proc.devRef .tc main_arg8)) transposes_S40x128_S128x40_1_0) (transpose S128x40 [1, 0] (U (Proc.devRef .tc main_arg9)) transposes_S40x128_S128x40_1_0) (U (Proc.devRef .tc main_arg10)) :=
  (spelled2a_v86 U).trans (preR_eq _ _ _ _ _ _)
/-- The last stretch leaves the log-softmax of every row of what it finds. -/
theorem after2b_v87 : after (ops2b (F := Ideal)) U (Proc.devRef .tc main_v87)
    = logSoftmax (A := 100000) (N := 40) (U (Proc.devRef .tc main_v86)) :=
  (spelled2b_v87 U).trans (lsmR_eq _)

end Stretches

end Cert.ReferenceIdeal.Net

end
-- ==== Proof.RefRun.lean ====
/-
  The idealized reference's run, read back: every weakly fair execution ends with each buffer at the fold of the 124
  operations over the launch memory; composed stretch by stretch, the returned array is the three-layer network of
  the argument arrays (the gather and the scatter-add as the program spells them), and the arguments are unchanged.
-/
import proofs.«107827_j63359357550605_2_alg».proof.Proof.RefLayers

noncomputable section

namespace Cert.ReferenceIdeal.Net

open Cert.ReferenceIdeal Cert.ReferenceIdeal.Gen Idealize.ShloMosaic Idealize.ShloMosaic.TcCoe Idealize.SL.Sem Idealize.ShloMosaic.StableHlo
open Cert.LibSageMean Cert.LibLayers Cert.SageNet

/-- The returned array after the whole line: the network of the argument arrays. -/
theorem result_eq (W : Valuation τ sig (Elt Ideal)) :
    after (ops (F := Ideal)) W (Proc.devRef .tc main_v87)
      = net 100000 128 40 (aggR (srcOf (W (Proc.devRef .tc main_arg1))) (dstOf (W (Proc.devRef .tc main_arg1)))) (cntR (dstOf (W (Proc.devRef .tc main_arg1)))) (W (Proc.devRef .tc main_arg0))
          (transpose S128x128 [1, 0] (W (Proc.devRef .tc main_arg2)) transposes_S128x128_S128x128_1_0)
          (transpose S128x128 [1, 0] (W (Proc.devRef .tc main_arg3)) transposes_S128x128_S128x128_1_0) (W (Proc.devRef .tc main_arg4))
          (transpose S128x128 [1, 0] (W (Proc.devRef .tc main_arg5)) transposes_S128x128_S128x128_1_0)
          (transpose S128x128 [1, 0] (W (Proc.devRef .tc main_arg6)) transposes_S128x128_S128x128_1_0) (W (Proc.devRef .tc main_arg7))
          (transpose S128x40 [1, 0] (W (Proc.devRef .tc main_arg8)) transposes_S40x128_S128x40_1_0)
          (transpose S128x40 [1, 0] (W (Proc.devRef .tc main_arg9)) transposes_S40x128_S128x40_1_0) (W (Proc.devRef .tc main_arg10)) := by
  show after (opsP ++ (ops0a ++ (opsR0 ++ (ops1a ++ (opsR1 ++ (ops2a ++ ops2b)))))) W (Proc.devRef .tc main_v87) = _
  rw [after_append, after_append, after_append, after_append, after_append, after_append,
    after2b_v87, after2a_v86, afterR1_v59, after1a_v58, afterR0_v31, after0a_v30,
    keep_R1_v1, keep_R1_v3, keep_R1_arg8, keep_R1_arg9, keep_R1_arg10,
    keep_1a_v1, keep_1a_v3, keep_1a_arg8, keep_1a_arg9, keep_1a_arg10,
    keep_R0_v1, keep_R0_v3, keep_R0_arg5, keep_R0_arg6, keep_R0_arg7, keep_R0_arg8, keep_R0_arg9, keep_R0_arg10,
    keep_0a_v1, keep_0a_v3, keep_0a_arg5, keep_0a_arg6, keep_0a_arg7, keep_0a_arg8, keep_0a_arg9, keep_0a_arg10,
    afterP_v1, afterP_v3, keep_P_arg0, keep_P_arg2, keep_P_arg3, keep_P_arg4, keep_P_arg5, keep_P_arg6, keep_P_arg7, keep_P_arg8, keep_P_arg9, keep_P_arg10]
  rfl

/-- A buffer no stretch writes: walk the cuts, then every operation's own result buffer differs from it. -/
local macro "kept_through" : tactic =>
  `(tactic| (show after (opsP ++ (ops0a ++ (opsR0 ++ (ops1a ++ (opsR1 ++ (ops2a ++ ops2b)))))) _ _ = _
             rw [after_append, after_append, after_append, after_append, after_append, after_append]
             after_results_simp))

set_option maxRecDepth 8192 in
set_option maxHeartbeats 4000000 in
/-- Every weakly fair execution of the reference terminates with the returned array at the network of the argument
    arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = net 100000 128 40 (aggR (srcOf (m ((c.tc : Thread nD τ).loc main_arg1))) (dstOf (m ((c.tc : Thread nD τ).loc main_arg1)))) (cntR (dstOf (m ((c.tc : Thread nD τ).loc main_arg1)))) (m ((c.tc : Thread nD τ).loc main_arg0))
          (transpose S128x128 [1, 0] (m ((c.tc : Thread nD τ).loc main_arg2)) transposes_S128x128_S128x128_1_0)
          (transpose S128x128 [1, 0] (m ((c.tc : Thread nD τ).loc main_arg3)) transposes_S128x128_S128x128_1_0) (m ((c.tc : Thread nD τ).loc main_arg4))
          (transpose S128x128 [1, 0] (m ((c.tc : Thread nD τ).loc main_arg5)) transposes_S128x128_S128x128_1_0)
          (transpose S128x128 [1, 0] (m ((c.tc : Thread nD τ).loc main_arg6)) transposes_S128x128_S128x128_1_0) (m ((c.tc : Thread nD τ).loc main_arg7))
          (transpose S128x40 [1, 0] (m ((c.tc : Thread nD τ).loc main_arg8)) transposes_S40x128_S128x40_1_0)
          (transpose S128x40 [1, 0] (m ((c.tc : Thread nD τ).loc main_arg9)) transposes_S40x128_S128x40_1_0) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v87).trans (result_eq (launchContents m c)),
      (h c main_arg0).trans (by kept_through),
      (h c main_arg1).trans (by kept_through),
      (h c main_arg2).trans (by kept_through),
      (h c main_arg3).trans (by kept_through),
      (h c main_arg4).trans (by kept_through),
      (h c main_arg5).trans (by kept_through),
      (h c main_arg6).trans (by kept_through),
      (h c main_arg7).trans (by kept_through),
      (h c main_arg8).trans (by kept_through),
      (h c main_arg9).trans (by kept_through),
      (h c main_arg10).trans (by kept_through)⟩)
    (run_seq scopedRefs_eq scopedSems_eq defs main (fun _ => ops) main_eq (fun _ => ops_sub) m ρ)

end Cert.ReferenceIdeal.Net

end
-- ==== Proof.Bridge.lean ====
/-
  The two programs spell the same aggregation and the same count.

  Both take the feature rows at the source ids (a negative id wrapped by the number of nodes) and scatter-add them into
  zero rows at the target ids, with the same gather and scatter dimension numbers; the kernel's host code keeps the
  rows in a narrower float format across the gather, which is the identity at the ideal values.  Both count the edges
  into a node by scatter-adding ones and take the maximum with one.  So the two aggregations are ONE function of the
  ids and the rows, and the two counts ONE function of the ids, and neither ever has to be opened.
-/
import proofs.«107827_j63359357550605_2_alg».proof.Proof.KSpec
import proofs.«107827_j63359357550605_2_alg».proof.Proof.RefOps

noncomputable section

namespace Cert.Bridge

open Idealize.ShloMosaic

/-- The dimension numbers are the same records. -/
theorem scatterRows_eq : Cert.ReferenceIdeal.scatter_S100000x128_S800000x1_S800000x128_1_0_0_1 = Cert.KernelIdeal.scatter_S100000x128_S800000x1_S800000x128_1_0_0_1 := rfl
theorem scatterVec_eq : Cert.ReferenceIdeal.scatter_S100000_S800000x1_S800000_n_0_0_1 = Cert.KernelIdeal.scatter_S100000_S800000x1_S800000_n_0_0_1 := rfl
theorem gatherRows_eq : Cert.ReferenceIdeal.gather_S100000x128_S800000x1_S800000x128_1_0_n_n_0_1_1128 = Cert.KernelIdeal.gather_S100000x128_S800000x1_S800000x128_1_0_n_n_0_1_1128 := rfl

/-- Widening from the narrower format is the identity at the ideal values. -/
theorem widen_id {s : Shape} (v : s.Idx → EReal) (h : FTy.bits .bf16 < FTy.bits .f32) :
    (extf (F := Ideal) .f32 (v : FVec Ideal s .bf16) h : s.Idx → EReal) = v := rfl

/-- The edge rows. -/
theorem srcOf_eq (e : IVec Cert.KernelIdeal.S2x800000 32) : Cert.ReferenceIdeal.Net.srcOf e = Cert.KernelIdeal.Net.srcOf e := rfl
theorem dstOf_eq (e : IVec Cert.KernelIdeal.S2x800000 32) : Cert.ReferenceIdeal.Net.dstOf e = Cert.KernelIdeal.Net.dstOf e := rfl

/-- The aggregations are one function. -/
theorem agg_eq (src dst : IVec Cert.KernelIdeal.S800000 32) (h : Cert.KernelIdeal.S100000x128.Idx → EReal) :
    Cert.ReferenceIdeal.Net.aggR src dst h = Cert.KernelIdeal.Net.aggK src dst h := by
  unfold Cert.ReferenceIdeal.Net.aggR Cert.KernelIdeal.Net.aggK
  rw [scatterRows_eq, gatherRows_eq, widen_id]

/-- The counts are one function. -/
theorem cnt_eq (dst : IVec Cert.KernelIdeal.S800000 32) : Cert.ReferenceIdeal.Net.cntR dst = Cert.KernelIdeal.Net.cntK dst := by
  unfold Cert.ReferenceIdeal.Net.cntR Cert.KernelIdeal.Net.cntK Cert.KernelIdeal.Net.degK
  rw [scatterVec_eq]

end Cert.Bridge

end
-- ==== Proof.lean ====
/-
  A three-layer GraphSAGE network with mean aggregation: the Pallas kernel against its jnp reference, on the extended reals.

  Both programs aggregate a layer's input rows over the edges by the same gather and scatter-add, and both count the
  edges into each node by scatter-adding ones and taking the maximum with one.  A layer is then
      act( (mean @ wl + own @ wr) + b ),   act = max(., 0) on the two hidden layers, the row-wise log-softmax on the last,
  where the reference forms the mean as  sums / count  on the host and the kernel forms it inside its body as
  sums * (1 / count), the reciprocal count arriving as a column.  Since every count is at least one it is not zero, and
  then x / d and x * (1 / d) are both x * d^-1 for EVERY extended real x: the two programs compute one function, and
  nothing needs the inputs to be finite.  The kernel's narrowing of the hidden rows to a shorter float format is the
  identity at the ideal values, and its ten row blocks tile the 100000 nodes.

  The kernel's returned array is named layer by layer along the boundaries between its three pipelined regions and the
  host stretches between them; the reference's is read back stretch by stretch from its list of host operations.  Both
  are the same network of the argument arrays.  The three frame claims: the word-level and the idealized kernel by their
  launch theorems, the reference by its run with the result dropped.  Nothing was rewritten by the idealization, so
  that claim is trivial.
-/
import proofs.«107827_j63359357550605_2_alg».proof.Defs
import proofs.«107827_j63359357550605_2_alg».proof.Proof.Gen.Kernel
import proofs.«107827_j63359357550605_2_alg».proof.Proof.Gen.Kernel.Skeleton
import proofs.«107827_j63359357550605_2_alg».proof.Proof.Gen.Kernel.Launch
import proofs.«107827_j63359357550605_2_alg».proof.Proof.Gen.Kernel.Points
import proofs.«107827_j63359357550605_2_alg».proof.Proof.Gen.Kernel.Frame
import proofs.«107827_j63359357550605_2_alg».proof.Proof.Gen.KernelIdeal
import proofs.«107827_j63359357550605_2_alg».proof.Proof.Gen.KernelIdeal.Skeleton
import proofs.«107827_j63359357550605_2_alg».proof.Proof.Gen.KernelIdeal.Launch
import proofs.«107827_j63359357550605_2_alg».proof.Proof.Gen.KernelIdeal.Points
import proofs.«107827_j63359357550605_2_alg».proof.Proof.Gen.KernelIdeal.Frame
import proofs.«107827_j63359357550605_2_alg».proof.Proof.Gen.ReferenceIdeal
import proofs.«107827_j63359357550605_2_alg».proof.Proof.Gen.Pre_finite_inputs
import proofs.«107827_j63359357550605_2_alg».proof.Proof.KChain
import proofs.«107827_j63359357550605_2_alg».proof.Proof.RefRun
import proofs.«107827_j63359357550605_2_alg».proof.Proof.Bridge
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run (Cert.ReferenceIdeal.defs (F := Ideal)) _ _).mono (fun _ h c => (h c).2) (Cert.ReferenceIdeal.Net.run m ρ)

/-- From memories that agree on the arguments both programs end with the three-layer network of the arguments: the
    kernel's quotient-free layers meet the reference's because every count is at least one. -/
theorem algebraic : Cert.algebraic_KernelIdeal_ReferenceIdeal := by
  intro m ρ m' ρ' _ hagree
  refine ⟨fun c => Cert.KernelIdeal.Net.outK m c, ?_, ?_⟩
  · exact (θ_run (Cert.KernelIdeal.defs (F := Ideal)) _ _).mono
      (fun r h c => ⟨(h c).1.trans (Cert.KernelIdeal.Net.W6_v58 m ρ c), (h c).2⟩) (Cert.KernelIdeal.Net.run_result m ρ)
  · refine (θ_run (Cert.ReferenceIdeal.defs (F := Ideal)) _ _).mono (fun r h c => ⟨(h c).1.trans ?_, (h c).2⟩)
      (Cert.ReferenceIdeal.Net.run m' ρ')
    obtain ⟨e0, e1, e2, e3, e4, e5, e6, e7, e8, e9, e10⟩ := hagree c
    show _ = Cert.KernelIdeal.Net.outK m c
    rw [e0, e1, e2, e3, e4, e5, e6, e7, e8, e9, e10, Cert.KernelIdeal.Net.outK_eq_net, Cert.Bridge.srcOf_eq, Cert.Bridge.dstOf_eq,
      Cert.Bridge.cnt_eq,
      (funext (Cert.Bridge.agg_eq _ _) : Cert.ReferenceIdeal.Net.aggR (Cert.KernelIdeal.Net.srcOf (m ((c.tc : Thread Cert.KernelIdeal.nD Cert.KernelIdeal.τ).loc Cert.KernelIdeal.main_arg1))) (Cert.KernelIdeal.Net.dstOf (m ((c.tc : Thread Cert.KernelIdeal.nD Cert.KernelIdeal.τ).loc Cert.KernelIdeal.main_arg1)))
        = Cert.KernelIdeal.Net.aggK (Cert.KernelIdeal.Net.srcOf (m ((c.tc : Thread Cert.KernelIdeal.nD Cert.KernelIdeal.τ).loc Cert.KernelIdeal.main_arg1))) (Cert.KernelIdeal.Net.dstOf (m ((c.tc : Thread Cert.KernelIdeal.nD Cert.KernelIdeal.τ).loc Cert.KernelIdeal.main_arg1))))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
